-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel

variable [Facts]

def fn {F : FTy → Type} [FloatOps F] (main_arg0 : FVec F S4x64x256x256 .f32) (main_arg1 : FVec F S4x64x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  let main_v4 : FVec F S4x64x256x256 .f32 := Host.absf main_arg1
  let main_cst_0 : FVec F S_ .f32 := constant S_ .f32 0x7F800000#32
  let main_v5 : FVec F S4x64x256x256 .f32 := broadcastInDim S4x64x256x256 ![] bcast_S_S4x64x256x256 main_cst_0
  let main_v6 : IVec S4x64x256x256 1 := cmpf .olt main_v4 main_v5
  let main_c_1 : IVec S_ 1 := constantI S_ 1 1#1
  let main_v7 : IVec S_ 1 := (fun x v => Host.reduce IntOp.andi x v reducesTo_S4x64x256x256_S_d0_1_2_3 h_S_) main_v6 main_c_1
  let main_v8 : IVec S_ 1 := andi main_v3 main_v7
  main_v8
-- ==== Kernel.lean ====
abbrev S4x64x256x256 : Shape := ⟨4, ![4, 64, 256, 256]⟩
abbrev S_ : Shape := ⟨0, ![]⟩
abbrev S4x64x258x258 : Shape := ⟨4, ![4, 64, 258, 258]⟩
abbrev S4x8x256x256 : Shape := ⟨4, ![4, 8, 256, 256]⟩
abbrev S1x64x258x258 : Shape := ⟨4, ![1, 64, 258, 258]⟩
abbrev S1x64x32x256 : Shape := ⟨4, ![1, 64, 32, 256]⟩
abbrev S1x8x32x256 : Shape := ⟨4, ![1, 8, 32, 256]⟩
abbrev S1x64x34x258 : Shape := ⟨4, ![1, 64, 34, 258]⟩
abbrev S64x34x258 : Shape := ⟨3, ![64, 34, 258]⟩
abbrev S64x32x256 : Shape := ⟨3, ![64, 32, 256]⟩
abbrev S34x258 : Shape := ⟨2, ![34, 258]⟩
abbrev S1x34x258 : Shape := ⟨3, ![1, 34, 258]⟩
abbrev S32x256 : Shape := ⟨2, ![32, 256]⟩
abbrev S1x32x256 : Shape := ⟨3, ![1, 32, 256]⟩
abbrev S1x1x32x256 : Shape := ⟨4, ![1, 1, 32, 256]⟩

abbrev nBuf : Space → Nat
  | .hbm => 6
  | .vmem => 5
  | .smem => 0
  | _ => 0

abbrev bufTy : (tb : Table) → Fin (tcTables nBuf tb) → BufTy
  | .hbm, ⟨0, _⟩ => ⟨S4x64x256x256, .f32⟩
  | .hbm, ⟨1, _⟩ => ⟨S4x64x256x256, .f32⟩
  | .hbm, ⟨2, _⟩ => ⟨S_, .i32⟩
  | .hbm, ⟨3, _⟩ => ⟨S_, .f32⟩
  | .hbm, ⟨4, _⟩ => ⟨S4x64x258x258, .f32⟩
  | .hbm, ⟨5, _⟩ => ⟨S4x8x256x256, .f32⟩
  | .local _ .vmem, ⟨0, _⟩ => ⟨S1x64x258x258, .f32⟩
  | .local _ .vmem, ⟨1, _⟩ => ⟨S1x64x32x256, .f32⟩
  | .local _ .vmem, ⟨2, _⟩ => ⟨S1x64x32x256, .f32⟩
  | .local _ .vmem, ⟨3, _⟩ => ⟨S1x8x32x256, .f32⟩
  | .local _ .vmem, ⟨4, _⟩ => ⟨S1x8x32x256, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1x64x258x258 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x64x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x64x256x256_S4x64x258x258_000_000_110_110 : S4x64x256x256.Pads (![0, 0, 1, 1] : Fin 4 → Nat) ![0, 0, 1, 1] ![0, 0, 0, 0] S4x64x258x258
  h_S_ : 0 < S_.numel
  h_S1x64x34x258 : 0 < S1x64x34x258.numel
  shapeCasts_S1x64x34x258_S64x34x258 : S1x64x34x258.ShapeCasts S64x34x258
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  reduces_S64x34x258_S34x258 : S64x34x258.Reduces [0] S34x258
  shapeCasts_S34x258_S1x34x258 : S34x258.ShapeCasts S1x34x258
  broadcasts_S1x34x258_S64x34x258 : S1x34x258.Broadcasts S64x34x258
  reduces_S64x32x256_S32x256 : S64x32x256.Reduces [0] S32x256
  shapeCasts_S32x256_S1x32x256 : S32x256.ShapeCasts S1x32x256
  broadcasts_S1x32x256_S64x32x256 : S1x32x256.Broadcasts S64x32x256
  slices_S64x34x258_o0_1_1_S64x32x256 : S64x34x258.Slices ![0, 1, 1] S64x32x256
  slices_S64x34x258_o0_0_0_S64x32x256 : S64x34x258.Slices ![0, 0, 0] S64x32x256
  inb_S1x8x32x256_S1x1x32x256_0_0_0_0 : ∀ a, (![0, 0, 0, 0] : Fin 4 → Nat) a + S1x1x32x256.size a ≤ S1x8x32x256.size a
  h_S1x1x32x256 : 0 < S1x1x32x256.numel
  shapeCasts_S1x1x32x256_S32x256 : S1x1x32x256.ShapeCasts S32x256
  shapeCasts_S32x256_S1x1x32x256 : S32x256.ShapeCasts S1x1x32x256
  slices_S64x34x258_o0_0_1_S64x32x256 : S64x34x258.Slices ![0, 0, 1] S64x32x256
  inb_S1x8x32x256_S1x1x32x256_0_1_0_0 : ∀ a, (![0, 1, 0, 0] : Fin 4 → Nat) a + S1x1x32x256.size a ≤ S1x8x32x256.size a
  slices_S64x34x258_o0_0_2_S64x32x256 : S64x34x258.Slices ![0, 0, 2] S64x32x256
  inb_S1x8x32x256_S1x1x32x256_0_2_0_0 : ∀ a, (![0, 2, 0, 0] : Fin 4 → Nat) a + S1x1x32x256.size a ≤ S1x8x32x256.size a
  slices_S64x34x258_o0_1_0_S64x32x256 : S64x34x258.Slices ![0, 1, 0] S64x32x256
  inb_S1x8x32x256_S1x1x32x256_0_3_0_0 : ∀ a, (![0, 3, 0, 0] : Fin 4 → Nat) a + S1x1x32x256.size a ≤ S1x8x32x256.size a
  slices_S64x34x258_o0_1_2_S64x32x256 : S64x34x258.Slices ![0, 1, 2] S64x32x256
  inb_S1x8x32x256_S1x1x32x256_0_4_0_0 : ∀ a, (![0, 4, 0, 0] : Fin 4 → Nat) a + S1x1x32x256.size a ≤ S1x8x32x256.size a
  slices_S64x34x258_o0_2_0_S64x32x256 : S64x34x258.Slices ![0, 2, 0] S64x32x256
  inb_S1x8x32x256_S1x1x32x256_0_5_0_0 : ∀ a, (![0, 5, 0, 0] : Fin 4 → Nat) a + S1x1x32x256.size a ≤ S1x8x32x256.size a
  slices_S64x34x258_o0_2_1_S64x32x256 : S64x34x258.Slices ![0, 2, 1] S64x32x256
  inb_S1x8x32x256_S1x1x32x256_0_6_0_0 : ∀ a, (![0, 6, 0, 0] : Fin 4 → Nat) a + S1x1x32x256.size a ≤ S1x8x32x256.size a
  slices_S64x34x258_o0_2_2_S64x32x256 : S64x34x258.Slices ![0, 2, 2] S64x32x256
  inb_S1x8x32x256_S1x1x32x256_0_7_0_0 : ∀ a, (![0, 7, 0, 0] : Fin 4 → Nat) a + S1x1x32x256.size a ≤ S1x8x32x256.size a
  hrank0 : 0 < grid0.rank
  k0_mult1_dvd : ∀ i : grid0.Coords, 8 ∣ (k0_mult1 i).toNat
  k0_off1_inb : ∀ i : grid0.Coords, ∀ a, (k0_off1 i) a + S1x64x34x258.size a ≤ S1x64x258x258.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x258x258.size a ≤ S4x64x258x258.size a
  hwx0_0 : ∀ i : grid0.Coords, EltTy.bits .f32 = 32 ∨ (Rect.block (s := S4x64x258x258) S1x64x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32x256.size a ≤ S4x64x256x256.size a
  hwx0_1 : ∀ i : grid0.Coords, EltTy.bits .f32 = 32 ∨ (Rect.block (s := S4x64x256x256) S1x64x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x32x256.size a ≤ S4x8x256x256.size a
  hwx0_2 : ∀ i : grid0.Coords, EltTy.bits .f32 = 32 ∨ (Rect.block (s := S4x8x256x256) S1x8x32x256.size (cc0_transform_2 i) (hinb0_2 i)).WholeWords (EltTy.packing .f32)

variable [Facts₀]

abbrev win0_0 : Pipeline.Window sig grid0 :=
  Pipeline.Window.ofSpec (Memref.whole main_v0) S1x64x258x258.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x256x256 : Shape := ⟨4, ![4, 64, 256, 256]⟩
abbrev S_ : Shape := ⟨0, ![]⟩
abbrev S4x256x256 : Shape := ⟨3, ![4, 256, 256]⟩
abbrev S4x1x256x256 : Shape := ⟨4, ![4, 1, 256, 256]⟩
abbrev S4x64x258x258 : Shape := ⟨4, ![4, 64, 258, 258]⟩
abbrev S4x8x256x256 : Shape := ⟨4, ![4, 8, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S4x64x256x256, .f32⟩
  | .hbm, ⟨1, _⟩ => ⟨S4x64x256x256, .f32⟩
  | .hbm, ⟨2, _⟩ => ⟨S4x64x256x256, .f32⟩
  | .hbm, ⟨3, _⟩ => ⟨S_, .f32⟩
  | .hbm, ⟨4, _⟩ => ⟨S4x256x256, .f32⟩
  | .hbm, ⟨5, _⟩ => ⟨S4x1x256x256, .f32⟩
  | .hbm, ⟨6, _⟩ => ⟨S4x1x256x256, .f32⟩
  | .hbm, ⟨7, _⟩ => ⟨S_, .f32⟩
  | .hbm, ⟨8, _⟩ => ⟨S4x1x256x256, .f32⟩
  | .hbm, ⟨9, _⟩ => ⟨S4x1x256x256, .f32⟩
  | .hbm, ⟨10, _⟩ => ⟨S4x64x256x256, .f32⟩
  | .hbm, ⟨11, _⟩ => ⟨S4x64x256x256, .f32⟩
  | .hbm, ⟨12, _⟩ => ⟨S4x64x256x256, .f32⟩
  | .hbm, ⟨13, _⟩ => ⟨S_, .f32⟩
  | .hbm, ⟨14, _⟩ => ⟨S4x256x256, .f32⟩
  | .hbm, ⟨15, _⟩ => ⟨S4x1x256x256, .f32⟩
  | .hbm, ⟨16, _⟩ => ⟨S4x1x256x256, .f32⟩
  | .hbm, ⟨17, _⟩ => ⟨S_, .f32⟩
  | .hbm, ⟨18, _⟩ => ⟨S4x1x256x256, .f32⟩
  | .hbm, ⟨19, _⟩ => ⟨S4x1x256x256, .f32⟩
  | .hbm, ⟨20, _⟩ => ⟨S4x64x256x256, .f32⟩
  | .hbm, ⟨21, _⟩ => ⟨S4x64x256x256, .f32⟩
  | .hbm, ⟨22, _⟩ => ⟨S_, .i32⟩
  | .hbm, ⟨23, _⟩ => ⟨S_, .f32⟩
  | .hbm, ⟨24, _⟩ => ⟨S4x64x258x258, .f32⟩
  | .hbm, ⟨25, _⟩ => ⟨S4x64x256x256, .f32⟩
  | .hbm, ⟨26, _⟩ => ⟨S4x64x256x256, .f32⟩
  | .hbm, ⟨27, _⟩ => ⟨S4x64x256x256, .f32⟩
  | .hbm, ⟨28, _⟩ => ⟨S4x64x256x256, .f32⟩
  | .hbm, ⟨29, _⟩ => ⟨S_, .f32⟩
  | .hbm, ⟨30, _⟩ => ⟨S4x256x256, .f32⟩
  | .hbm, ⟨31, _⟩ => ⟨S4x64x256x256, .f32⟩
  | .hbm, ⟨32, _⟩ => ⟨S4x64x256x256, .f32⟩
  | .hbm, ⟨33, _⟩ => ⟨S4x64x256x256, .f32⟩
  | .hbm, ⟨34, _⟩ => ⟨S4x64x256x256, .f32⟩
  | .hbm, ⟨35, _⟩ => ⟨S_, .f32⟩
  | .hbm, ⟨36, _⟩ => ⟨S4x256x256, .f32⟩
  | .hbm, ⟨37, _⟩ => ⟨S4x64x256x256, .f32⟩
  | .hbm, ⟨38, _⟩ => ⟨S4x64x256x256, .f32⟩
  | .hbm, ⟨39, _⟩ => ⟨S4x64x256x256, .f32⟩
  | .hbm, ⟨40, _⟩ => ⟨S4x64x256x256, .f32⟩
  | .hbm, ⟨41, _⟩ => ⟨S_, .f32⟩
  | .hbm, ⟨42, _⟩ => ⟨S4x256x256, .f32⟩
  | .hbm, ⟨43, _⟩ => ⟨S4x64x256x256, .f32⟩
  | .hbm, ⟨44, _⟩ => ⟨S4x64x256x256, .f32⟩
  | .hbm, ⟨45, _⟩ => ⟨S4x64x256x256, .f32⟩
  | .hbm, ⟨46, _⟩ => ⟨S4x64x256x256, .f32⟩
  | .hbm, ⟨47, _⟩ => ⟨S_, .f32⟩
  | .hbm, ⟨48, _⟩ => ⟨S4x256x256, .f32⟩
  | .hbm, ⟨49, _⟩ => ⟨S4x64x256x256, .f32⟩
  | .hbm, ⟨50, _⟩ => ⟨S4x64x256x256, .f32⟩
  | .hbm, ⟨51, _⟩ => ⟨S4x64x256x256, .f32⟩
  | .hbm, ⟨52, _⟩ => ⟨S4x64x256x256, .f32⟩
  | .hbm, ⟨53, _⟩ => ⟨S_, .f32⟩
  | .hbm, ⟨54, _⟩ => ⟨S4x256x256, .f32⟩
  | .hbm, ⟨55, _⟩ => ⟨S4x64x256x256, .f32⟩
  | .hbm, ⟨56, _⟩ => ⟨S4x64x256x256, .f32⟩
  | .hbm, ⟨57, _⟩ => ⟨S4x64x256x256, .f32⟩
  | .hbm, ⟨58, _⟩ => ⟨S4x64x256x256, .f32⟩
  | .hbm, ⟨59, _⟩ => ⟨S_, .f32⟩
  | .hbm, ⟨60, _⟩ => ⟨S4x256x256, .f32⟩
  | .hbm, ⟨61, _⟩ => ⟨S4x64x256x256, .f32⟩
  | .hbm, ⟨62, _⟩ => ⟨S4x64x256x256, .f32⟩
  | .hbm, ⟨63, _⟩ => ⟨S4x64x256x256, .f32⟩
  | .hbm, ⟨64, _⟩ => ⟨S4x64x256x256, .f32⟩
  | .hbm, ⟨65, _⟩ => ⟨S_, .f32⟩
  | .hbm, ⟨66, _⟩ => ⟨S4x256x256, .f32⟩
  | .hbm, ⟨67, _⟩ => ⟨S4x64x256x256, .f32⟩
  | .hbm, ⟨68, _⟩ => ⟨S4x64x256x256, .f32⟩
  | .hbm, ⟨69, _⟩ => ⟨S4x64x256x256, .f32⟩
  | .hbm, ⟨70, _⟩ => ⟨S4x64x256x256, .f32⟩
  | .hbm, ⟨71, _⟩ => ⟨S_, .f32⟩
  | .hbm, ⟨72, _⟩ => ⟨S4x256x256, .f32⟩
  | .hbm, ⟨73, _⟩ => ⟨S4x1x256x256, .f32⟩
  | .hbm, ⟨74, _⟩ => ⟨S4x1x256x256, .f32⟩
  | .hbm, ⟨75, _⟩ => ⟨S4x1x256x256, .f32⟩
  | .hbm, ⟨76, _⟩ => ⟨S4x1x256x256, .f32⟩
  | .hbm, ⟨77, _⟩ => ⟨S4x1x256x256, .f32⟩
  | .hbm, ⟨78, _⟩ => ⟨S4x1x256x256, .f32⟩
  | .hbm, ⟨79, _⟩ => ⟨S4x1x256x256, .f32⟩
  | .hbm, ⟨80, _⟩ => ⟨S4x1x256x256, .f32⟩
  | .hbm, ⟨81, _⟩ => ⟨S4x8x256x256, .f32⟩
  | .hbm, ⟨82, _⟩ => ⟨S_, .f32⟩
  | .hbm, ⟨83, _⟩ => ⟨S4x8x256x256, .f32⟩
  | .hbm, ⟨84, _⟩ => ⟨S4x8x256x256, .f32⟩
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]

class Facts₀ : Prop where
  reducesTo_S4x64x256x256_S4x256x256_d1 : S4x64x256x256.ReducesTo [1] S4x256x256
  h_S_ : 0 < S_.numel
  bcast_S4x256x256_S4x1x256x256_0_2_3 : S4x256x256.BroadcastsInDim S4x1x256x256 (![0, 2, 3] : Fin 3 → Fin S4x1x256x256.rank)
  bcast_S_S4x1x256x256 : S_.BroadcastsInDim S4x1x256x256 (![] : Fin 0 → Fin S4x1x256x256.rank)
  bcast_S4x1x256x256_S4x64x256x256_0_1_2_3 : S4x1x256x256.BroadcastsInDim S4x64x256x256 (![0, 1, 2, 3] : Fin 4 → Fin S4x64x256x256.rank)
  pads_S4x64x256x256_S4x64x258x258_000_000_110_110 : S4x64x256x256.Pads (![0, 0, 1, 1] : Fin 4 → Nat) ![0, 0, 1, 1] ![0, 0, 0, 0] S4x64x258x258
  slices_S4x64x258x258_S4x64x256x256_0_0_0_0 : S4x64x258x258.Slices ![0, 0, 0, 0] S4x64x256x256
  slices_S4x64x258x258_S4x64x256x256_0_0_0_1 : S4x64x258x258.Slices ![0, 0, 0, 1] S4x64x256x256
  slices_S4x64x258x258_S4x64x256x256_0_0_0_2 : S4x64x258x258.Slices ![0, 0, 0, 2] S4x64x256x256
  slices_S4x64x258x258_S4x64x256x256_0_0_1_0 : S4x64x258x258.Slices ![0, 0, 1, 0] S4x64x256x256
  slices_S4x64x258x258_S4x64x256x256_0_0_1_2 : S4x64x258x258.Slices ![0, 0, 1, 2] S4x64x256x256
  slices_S4x64x258x258_S4x64x256x256_0_0_2_0 : S4x64x258x258.Slices ![0, 0, 2, 0] S4x64x256x256
  slices_S4x64x258x258_S4x64x256x256_0_0_2_1 : S4x64x258x258.Slices ![0, 0, 2, 1] S4x64x256x256
  slices_S4x64x258x258_S4x64x256x256_0_0_2_2 : S4x64x258x258.Slices ![0, 0, 2, 2] S4x64x256x256
  concatenates_S4x1x256x256_S4x1x256x256_S4x1x256x256_S4x1x256x256_S4x1x256x256_S4x1x256x256_S4x1x256x256_S4x1x256x256_S4x8x256x256_d1 : Shape.Concatenates [S4x1x256x256, S4x1x256x256, S4x1x256x256, S4x1x256x256, S4x1x256x256, S4x1x256x256, S4x1x256x256, S4x1x256x256] S4x8x256x256 1
  bcast_S_S4x8x256x256 : S_.BroadcastsInDim S4x8x256x256 (![] : Fin 0 → Fin S4x8x256x256.rank)

variable [Facts₀]

class Facts : Prop extends Facts₀ where

variable [Facts]
-- ==== Proof.Spec.lean ====
/-
  The local patch affinity as ONE function of the two argument arrays, index by index, on the extended reals.

  For a batch element `b`, a pixel `(y, x)` and one of the eight neighbour offsets `(di, dj) ≠ (1, 1)` of the
  3 × 3 window, the result is `max (Σ_c n_c · n_c · a_c · e_c) 0`, where `a` is the pixel's channel vector of the image
  divided by its Euclidean norm (floored at `eps`), `e` the same of the event array, and `n` the normalised channel
  vector of the image at the neighbouring pixel `(y + di - 1, x + dj - 1)`, the zero vector outside the image.

  The zero border can be produced on either side of the normalisation: a zero vector normalises to the zero vector
  (`unitAt_zero`: its floored norm is `eps > 0`, and `0 / eps = 0`), so normalising the zero-padded image (`nb`) is
  zero-padding the normalised image (`nb_eq`). The product of four factors is read in two groupings, equal by
  commutativity and associativity alone (`term_comm`): no finiteness is needed.
-/
import Idealize.ShloMosaic.PureOps.Ideal
import Idealize.ShloMosaic.PureOps.Ideal.Laws
import Idealize.ShloMosaic.Lib.ValueIdx

noncomputable section

open scoped BigOperators

namespace Cert.Affinity

open Idealize.ShloMosaic Idealize.ShloMosaic.ValueIdx

/-- A batch of 4 images of 64 channels of 256 × 256 pixels. -/
abbrev Img : Type := (⟨4, ![4, 64, 256, 256]⟩ : Shape).Idx → EReal

/-- The result: per image and per neighbour offset a 256 × 256 map. -/
abbrev Out : Type := (⟨4, ![4, 8, 256, 256]⟩ : Shape).Idx → EReal

/-- The floor under a norm: the f32 number nearest `1e-12`. -/
abbrev eps : EReal := Ideal.ofBits .f32 0x2B8CBCCC#32

/-- It is the dyadic `9223372 · 2⁻⁶³`. -/
theorem eps_eq : eps = ((9223372 * (2 : ℝ) ^ (-63 : ℤ) : ℝ) : EReal) := by
  simp [eps, Ideal.ofBits, Ideal.ieee, -EReal.coe_mul]

theorem eps_pos : (0 : EReal) < eps := by
  rw [eps_eq]; exact_mod_cast (by positivity : (0 : ℝ) < 9223372 * (2 : ℝ) ^ (-63 : ℤ))

/-- Entry `c` of a channel vector divided by the vector's Euclidean norm floored at `eps`. -/
def unitAt (v : Fin 64 → EReal) (c : Fin 64) : EReal :=
  Ideal.div (v c) (max (Ideal.sqrt (∑ k : Fin 64, v k * v k)) eps)

/-- The zero vector normalises to zero: its floored norm is `eps`, which is not zero. -/
theorem unitAt_zero (c : Fin 64) : unitAt (fun _ => 0) c = 0 := by
  unfold unitAt
  have hs : Ideal.sqrt (∑ _k : Fin 64, (0 : EReal) * 0) = 0 := by
    rw [Finset.sum_eq_zero (fun _ _ => mul_zero _), ← EReal.coe_zero, Ideal.sqrt_coe, if_neg (lt_irrefl _), Real.sqrt_zero]
  rw [hs, max_eq_right eps_pos.le]
  unfold Ideal.div
  rw [if_neg eps_pos.ne', zero_mul]

/-- A padded position `(r, s)` of the 258 × 258 frame lies over the image. -/
abbrev Inside (r s : ℕ) : Prop := (1 ≤ r ∧ r ≤ 256) ∧ (1 ≤ s ∧ s ≤ 256)

/-- The image with a one-pixel zero border, at frame position `(r, s)`. -/
def padAt (X : Img) (b : Fin 4) (k : Fin 64) (r s : ℕ) : EReal :=
  if h : Inside r s then X (ix4 b k ⟨r - 1, by omega⟩ ⟨s - 1, by omega⟩) else 0

/-- The normalised channel vector of the zero-bordered image at frame position `(r, s)`, entry `c`. -/
def nb (X : Img) (b : Fin 4) (c : Fin 64) (r s : ℕ) : EReal := unitAt (fun k => padAt X b k r s) c

/-- Normalising the zero-bordered image is zero-bordering the normalised image. -/
theorem nb_eq (X : Img) (b : Fin 4) (c : Fin 64) (r s : ℕ) :
    nb X b c r s = if h : Inside r s then unitAt (fun k => X (ix4 b k ⟨r - 1, by omega⟩ ⟨s - 1, by omega⟩)) c else 0 := by
  unfold nb
  by_cases h : Inside r s
  · rw [dif_pos h]; simp only [padAt, dif_pos h]
  · rw [dif_neg h]; simp only [padAt, dif_neg h]; exact unitAt_zero c

/-- At the frame position over pixel `(y, x)` itself it is that pixel's normalised channel vector. -/
theorem nb_center (X : Img) (b : Fin 4) (c : Fin 64) (y x : Fin 256) :
    nb X b c (y.val + 1) (x.val + 1) = unitAt (fun k => X (ix4 b k y x)) c := by
  have h : Inside (y.val + 1) (x.val + 1) := ⟨⟨by omega, by have := y.isLt; omega⟩, ⟨by omega, by have := x.isLt; omega⟩⟩
  rw [nb_eq, dif_pos h]
  rfl

/-- The eight neighbour offsets of the 3 × 3 window in row-major order, the centre left out. -/
def di (k : Fin 8) : ℕ := (![0, 0, 0, 1, 1, 2, 2, 2] : Fin 8 → ℕ) k
def dj (k : Fin 8) : ℕ := (![0, 1, 2, 0, 2, 0, 1, 2] : Fin 8 → ℕ) k

/-- The affinity of pixel `(y, x)` of image `b` with its `k`-th neighbour. -/
def affAt (X E : Img) (b : Fin 4) (k : Fin 8) (y x : Fin 256) : EReal :=
  max (∑ c : Fin 64, ((nb X b c (y.val + di k) (x.val + dj k) * nb X b c (y.val + di k) (x.val + dj k))
    * nb X b c (y.val + 1) (x.val + 1)) * unitAt (fun k' => E (ix4 b k' y x)) c) 0

/-- The whole result array. -/
def aff (X E : Img) : Out := fun i => affAt X E (i 0) (i 1) (i 2) (i 3)

theorem aff_apply (X E : Img) (b : Fin 4) (k : Fin 8) (y x : Fin 256) : aff X E (ix4 b k y x) = affAt X E b k y x := rfl

/-- The two groupings of the four-factor product. -/
theorem term_comm (n a e : EReal) : (n * a) * (n * e) = ((n * n) * a) * e := by
  rw [mul_mul_mul_comm, ← mul_assoc]

end Cert.Affinity

end
-- ==== Proof.KPlane.lean ====
/-
  One plane of the affinity block, read at an entry.

  For three arrays of 64 channels of 32 × 256 entries — the neighbour values `n`, the centre values `a` and the
  event values `e` — the plane is the channel sum of `((n · n) · a) · e`, floored at zero, stored with two leading unit
  axes. At entry `(r, s)` it is `max (Σ_c ((n_c · n_c) · a_c) · e_c) 0` of the values at `(c, r, s)`: the lane reduction over
  axis 0 is the plain sum over the channel, the floor is against the zero word, and the shape cast keeps the row-major
  position. A window of a 64 × 34 × 258 array starting at `(0, p, q)` reads `(c, r + p, s + q)`.
-/
import proofs.«179121_j22445499089558_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Affinity.Kernel

open Cert.KernelIdeal Cert.KernelIdeal.Gen Idealize.ShloMosaic Idealize.ShloMosaic.ValueIdx

/-- Over entry `(r, s)` of the 32 × 256 plane, channel `c` of the 64 × 32 × 256 array is `(c, r, s)`. -/
theorem lift_plane (h : S64x32x256.Reduces [0] S32x256) (r : Fin 32) (s : Fin 256) (c : Fin 64) :
    h.lift (ix2 r s) c = ix3 c r s := by
  funext a
  apply Fin.ext
  show h.liftVal (ix2 r s) c.val a = (ix3 c r s a).val
  unfold Shape.Reduces.liftVal
  match a with
  | ⟨0, _⟩ => rfl
  | ⟨1, _⟩ => rfl
  | ⟨2, _⟩ => rfl

/-- The same over entry `(r, s)` of the 34 × 258 frame. -/
theorem lift_frame (h : S64x34x258.Reduces [0] S34x258) (r : Fin 34) (s : Fin 258) (c : Fin 64) :
    h.lift (ix2 r s) c = ix3 c r s := by
  funext a
  apply Fin.ext
  show h.liftVal (ix2 r s) c.val a = (ix3 c r s a).val
  unfold Shape.Reduces.liftVal
  match a with
  | ⟨0, _⟩ => rfl
  | ⟨1, _⟩ => rfl
  | ⟨2, _⟩ => rfl

/-- A 64 × 32 × 256 window of a 64 × 34 × 258 array at offsets `(0, p, q)`, read at `(c, r, s)`. -/
theorem window_apply (p q : ℕ) (hp : p ≤ 2) (hq : q ≤ 2) (v : FVec Ideal S64x34x258 .f32)
    (h : S64x34x258.Slices ![0, p, q] S64x32x256) (c : Fin 64) (r : Fin 32) (s : Fin 256) :
    extractStridedSlice S64x32x256 ![0, p, q] v h (ix3 c r s)
      = v (ix3 c ⟨r.val + p, by omega⟩ ⟨s.val + q, by omega⟩) := by
  refine extractStridedSlice_apply _ v h _ _ (fun a => ?_)
  match a with
  | ⟨0, _⟩ => show c.val = 0 + c.val; omega
  | ⟨1, _⟩ => show r.val + p = p + r.val; omega
  | ⟨2, _⟩ => show s.val + q = q + s.val; omega

/-- The plane at entry `(r, s)`. -/
theorem plane_apply (n a e : FVec Ideal S64x32x256 .f32) (hr : S64x32x256.Reduces [0] S32x256)
    (hφ : FKind.Formats .f32) (hacc : (0x00000000#32 : BitVec FTy.f32.bits) = FKind.add.neutral .f32 hφ)
    (hc : S32x256.ShapeCasts S1x1x32x256) (a0 a1 : Fin 1) (r : Fin 32) (s : Fin 256) :
    shapeCast S1x1x32x256
        (maximumf (multiReduction .add [0] S32x256 (mulf (mulf (mulf n n) a) e) 0x00000000#32 hr hφ hacc)
          (broadcast S32x256 (Scalar.ofBits (F := Ideal) .f32 0x00000000#32))) hc (ix4 a0 a1 r s)
      = max (∑ c : Fin 64, ((n (ix3 c r s) * n (ix3 c r s)) * a (ix3 c r s)) * e (ix3 c r s)) 0 := by
  refine (shapeCast_apply _ hc (ix4 a0 a1 r s) (ix2 r s) ?_).trans ?_
  · rw [Shape.rowMajor_val_two, Shape.rowMajor_val_four]
    show r.val * 256 + s.val = ((a0.val * 1 + a1.val) * 32 + r.val) * 256 + s.val
    have := a0.isLt; have := a1.isLt; omega
  · rw [maximumf_apply, broadcast_apply, Ideal.multiReduction_add_single]
    show max (∑ c : Fin 64, _) (Ideal.ofBits .f32 0x00000000#32) = _
    rw [Ideal.ofBits_zero_f32]
    refine congrArg (max · 0) (Finset.sum_congr rfl fun c _ => ?_)
    rw [lift_plane hr r s c]
    rfl

end Cert.Affinity.Kernel

end
-- ==== Proof.KNorm.lean ====
/-
  The channel normalisation of a block, read at an entry.

  A block of 64 channels (a leading unit axis dropped) is divided, entry by entry, by the Euclidean norm of the entry's
  channel vector floored at `eps`: the squares are summed over the channel axis, the sum is given a unit channel axis,
  its square root is floored, and the floor is broadcast back over the channels. At entry `(c, r, s)` this is the
  specification's `unitAt` of the channel vector at `(r, s)`, entry `c` — for the 34 × 258 frame rows of the image and
  for the 32 × 256 tile of the event array alike.
-/
import proofs.«179121_j22445499089558_1_alg».proof.Proof.Gen.KernelIdeal.Skeleton
import proofs.«179121_j22445499089558_1_alg».proof.Proof.Spec
import proofs.«179121_j22445499089558_1_alg».proof.Proof.KPlane

noncomputable section

open scoped BigOperators

namespace Cert.Affinity.Kernel

open Cert.KernelIdeal Cert.KernelIdeal.Gen Idealize.ShloMosaic Idealize.ShloMosaic.ValueIdx Cert.Affinity

/-- The frame block without its leading unit axis, at `(c, r, s)`. -/
theorem frame_drop (v3 : Vec Ideal S1x64x34x258 .f32) (h : S1x64x34x258.ShapeCasts S64x34x258)
    (c : Fin 64) (r : Fin 34) (s : Fin 258) :
    shapeCast S64x34x258 v3 h (ix3 c r s) = v3 (ix4 (0 : Fin 1) c r s) := by
  refine shapeCast_apply v3 h _ _ ?_
  rw [Shape.rowMajor_val_three, Shape.rowMajor_val_four]
  show ((0 * 64 + c.val) * 34 + r.val) * 258 + s.val = (c.val * 34 + r.val) * 258 + s.val
  omega

/-- The tile block without its leading unit axis, at `(c, r, s)`. -/
theorem tile_drop (v5 : Vec Ideal S1x64x32x256 .f32) (h : S1x64x32x256.ShapeCasts S64x32x256)
    (c : Fin 64) (r : Fin 32) (s : Fin 256) :
    shapeCast S64x32x256 v5 h (ix3 c r s) = v5 (ix4 (0 : Fin 1) c r s) := by
  refine shapeCast_apply v5 h _ _ ?_
  rw [Shape.rowMajor_val_three, Shape.rowMajor_val_four]
  show ((0 * 64 + c.val) * 32 + r.val) * 256 + s.val = (c.val * 32 + r.val) * 256 + s.val
  omega

/-- The normalised frame rows at `(c, r, s)`: entry `c` of the normalised channel vector at `(r, s)`. -/
theorem frame_unit (v3 : Vec Ideal S1x64x34x258 .f32) (c : Fin 64) (r : Fin 34) (s : Fin 258) :
    k0_pay5 v3 (ix3 c r s) = unitAt (fun k => v3 (ix4 (0 : Fin 1) k r s)) c := by
  unfold k0_pay5 unitAt
  rw [divf_apply, frame_drop]
  refine congrArg (Ideal.div _) ?_
  refine (broadcastTo_apply _ broadcasts_S1x34x258_S64x34x258 (ix3 c r s) (ix3 (0 : Fin 1) r s) (fun a => ?_)).trans ?_
  · match a with
    | ⟨0, _⟩ => rfl
    | ⟨1, _⟩ => rfl
    | ⟨2, _⟩ => rfl
  · rw [maximumf_apply, broadcast_apply]
    refine congrArg (max · _) ?_
    show Ideal.sqrt (shapeCast S1x34x258 _ shapeCasts_S34x258_S1x34x258 (ix3 (0 : Fin 1) r s)) = _
    refine congrArg Ideal.sqrt ?_
    refine (shapeCast_apply _ shapeCasts_S34x258_S1x34x258 (ix3 (0 : Fin 1) r s) (ix2 r s) ?_).trans ?_
    · rw [Shape.rowMajor_val_two, Shape.rowMajor_val_three]
      show r.val * 258 + s.val = ((0 * 34) + r.val) * 258 + s.val
      omega
    · refine (Ideal.multiReduction_add_single _ _ reduces_S64x34x258_S34x258 _ _ (ix2 r s)).trans ?_
      show (∑ k : Fin 64, _) = ∑ k : Fin 64, _
      refine Finset.sum_congr rfl fun k _ => ?_
      rw [lift_frame reduces_S64x34x258_S34x258 r s k, mulf_apply, frame_drop]

/-- The normalised tile at `(c, r, s)`. -/
theorem tile_unit (v5 : Vec Ideal S1x64x32x256 .f32) (c : Fin 64) (r : Fin 32) (s : Fin 256) :
    k0_pay6 v5 (ix3 c r s) = unitAt (fun k => v5 (ix4 (0 : Fin 1) k r s)) c := by
  unfold k0_pay6 unitAt
  rw [divf_apply, tile_drop]
  refine congrArg (Ideal.div _) ?_
  refine (broadcastTo_apply _ broadcasts_S1x32x256_S64x32x256 (ix3 c r s) (ix3 (0 : Fin 1) r s) (fun a => ?_)).trans ?_
  · match a with
    | ⟨0, _⟩ => rfl
    | ⟨1, _⟩ => rfl
    | ⟨2, _⟩ => rfl
  · rw [maximumf_apply, broadcast_apply]
    refine congrArg (max · _) ?_
    show Ideal.sqrt (shapeCast S1x32x256 _ shapeCasts_S32x256_S1x32x256 (ix3 (0 : Fin 1) r s)) = _
    refine congrArg Ideal.sqrt ?_
    refine (shapeCast_apply _ shapeCasts_S32x256_S1x32x256 (ix3 (0 : Fin 1) r s) (ix2 r s) ?_).trans ?_
    · rw [Shape.rowMajor_val_two, Shape.rowMajor_val_three]
      show r.val * 256 + s.val = ((0 * 32) + r.val) * 256 + s.val
      omega
    · refine (Ideal.multiReduction_add_single _ _ reduces_S64x32x256_S32x256 _ _ (ix2 r s)).trans ?_
      show (∑ k : Fin 64, _) = ∑ k : Fin 64, _
      refine Finset.sum_congr rfl fun k _ => ?_
      rw [lift_plane reduces_S64x32x256_S32x256 r s k, mulf_apply, tile_drop]

end Cert.Affinity.Kernel

end
-- ==== Proof.KBlock.lean ====
/-
  What one grid point leaves in its output block, as a function of the two blocks it reads.

  The point reads 34 rows of the zero-bordered image (a leading unit axis, 64 channels, 34 × 258) and a 32-row tile of
  the event array (64 channels, 32 × 256). Both are normalised along the channel. For each of the eight neighbour
  offsets `(p, q)` the point stores one 32 × 256 plane: at `(r, s)` the channel sum of
  `((n · n) · a) · e` floored at zero, where `n` is the normalised frame at `(r + p, s + q)`, `a` the normalised frame at
  `(r + 1, s + 1)` and `e` the normalised tile at `(r, s)` (`planeAt`). The eight stores go to the eight planes of the
  block, so the block is `blockOf`: plane `k` is `planeAt` at the `k`-th offset. Every store's payload is the same
  expression of the two loads up to the window's offsets, so one lemma (`plane_block`) reads them all.
-/
import proofs.«179121_j22445499089558_1_alg».proof.Proof.Gen.KernelIdeal.Frame
import proofs.«179121_j22445499089558_1_alg».proof.Proof.Spec
import proofs.«179121_j22445499089558_1_alg».proof.Proof.KPlane
import proofs.«179121_j22445499089558_1_alg».proof.Proof.KNorm
import Idealize.ShloMosaic.Lib.Pipeline.Value
import Idealize.ShloMosaic.Lib.Tactic

set_option maxRecDepth 16384

noncomputable section

open scoped BigOperators

namespace Cert.Affinity.Kernel

open Cert.KernelIdeal Cert.KernelIdeal.Gen Idealize.ShloMosaic Idealize.ShloMosaic.ValueIdx Cert.Affinity
open Idealize.ShloMosaic.TcCoe Idealize.ShloMosaic.Tactic Idealize.SL.Sem

/-- The frame rows at natural coordinates `(r, s)`, channel `k`; zero past the block (never read there). -/
def frameAt (v3 : Vec Ideal S1x64x34x258 .f32) (k : Fin 64) (r s : ℕ) : EReal :=
  if h : r < 34 ∧ s < 258 then v3 (ix4 (0 : Fin 1) k ⟨r, h.1⟩ ⟨s, h.2⟩) else 0

/-- The plane for neighbour offset `(p, q)` at `(r, s)`. -/
def planeAt (v3 : Vec Ideal S1x64x34x258 .f32) (v5 : Vec Ideal S1x64x32x256 .f32) (p q : ℕ) (r : Fin 32) (s : Fin 256) : EReal :=
  max (∑ c : Fin 64,
    ((unitAt (fun k => frameAt v3 k (r.val + p) (s.val + q)) c * unitAt (fun k => frameAt v3 k (r.val + p) (s.val + q)) c)
      * unitAt (fun k => frameAt v3 k (r.val + 1) (s.val + 1)) c) * unitAt (fun k => v5 (ix4 (0 : Fin 1) k r s)) c) 0

/-- The block: plane `k` is the plane of the `k`-th neighbour offset. -/
def blockOf (v3 : Vec Ideal S1x64x34x258 .f32) (v5 : Vec Ideal S1x64x32x256 .f32) : Vec Ideal S1x8x32x256 .f32 :=
  fun y => planeAt v3 v5 (di (y 1)) (dj (y 1)) (y 2) (y 3)

/-- A window of the normalised frame at offsets `(0, p, q)`, read at `(c, r, s)`. -/
theorem window_unit (v3 : Vec Ideal S1x64x34x258 .f32) (p q : ℕ) (hp : p ≤ 2) (hq : q ≤ 2)
    (h : S64x34x258.Slices ![0, p, q] S64x32x256) (c : Fin 64) (r : Fin 32) (s : Fin 256) :
    extractStridedSlice S64x32x256 ![0, p, q] (k0_pay5 v3) h (ix3 c r s)
      = unitAt (fun k => frameAt v3 k (r.val + p) (s.val + q)) c := by
  rw [window_apply p q hp hq, frame_unit]
  refine congrArg (unitAt · c) (funext fun k => ?_)
  unfold frameAt
  rw [dif_pos ⟨by omega, by omega⟩]

/-- The stored plane for window offsets `(p, q)`, at `(r, s)`. -/
theorem plane_block (v3 : Vec Ideal S1x64x34x258 .f32) (v5 : Vec Ideal S1x64x32x256 .f32) (p q : ℕ) (hp : p ≤ 2) (hq : q ≤ 2)
    (h : S64x34x258.Slices ![0, p, q] S64x32x256) (h1 : S64x34x258.Slices ![0, 1, 1] S64x32x256)
    (hr : S64x32x256.Reduces [0] S32x256) (hφ : FKind.Formats .f32)
    (hacc : (0x00000000#32 : BitVec FTy.f32.bits) = FKind.add.neutral .f32 hφ)
    (hc : S32x256.ShapeCasts S1x1x32x256) (a0 a1 : Fin 1) (r : Fin 32) (s : Fin 256) :
    shapeCast S1x1x32x256
        (maximumf (multiReduction .add [0] S32x256
            (mulf (mulf (mulf (extractStridedSlice S64x32x256 ![0, p, q] (k0_pay5 v3) h)
                (extractStridedSlice S64x32x256 ![0, p, q] (k0_pay5 v3) h))
              (extractStridedSlice S64x32x256 ![0, 1, 1] (k0_pay5 v3) h1)) (k0_pay6 v5)) 0x00000000#32 hr hφ hacc)
          (broadcast S32x256 (Scalar.ofBits (F := Ideal) .f32 0x00000000#32))) hc (ix4 a0 a1 r s)
      = planeAt v3 v5 p q r s := by
  refine (plane_apply _ _ _ hr hφ hacc hc a0 a1 r s).trans ?_
  unfold planeAt
  refine congrArg (max · 0) (Finset.sum_congr rfl fun c _ => ?_)
  rw [window_unit v3 p q hp hq h, window_unit v3 1 1 (by omega) (by omega) h1, tile_unit]

/-! The eight stores, in the order of the planes. -/

theorem plane0 (v3 : Vec Ideal S1x64x34x258 .f32) (v5 : Vec Ideal S1x64x32x256 .f32) (a0 a1 : Fin 1) (r : Fin 32) (s : Fin 256) :
    k0_pay8 v3 v5 (ix4 a0 a1 r s) = planeAt v3 v5 0 0 r s :=
  plane_block v3 v5 0 0 (by omega) (by omega) slices_S64x34x258_o0_0_0_S64x32x256 slices_S64x34x258_o0_1_1_S64x32x256
    reduces_S64x32x256_S32x256 (.inl rfl) rfl shapeCasts_S32x256_S1x1x32x256 a0 a1 r s

theorem plane1 (v3 : Vec Ideal S1x64x34x258 .f32) (v5 : Vec Ideal S1x64x32x256 .f32) (a0 a1 : Fin 1) (r : Fin 32) (s : Fin 256) :
    k0_pay10 (k0_pay9 v3 v5) (ix4 a0 a1 r s) = planeAt v3 v5 0 1 r s :=
  plane_block v3 v5 0 1 (by omega) (by omega) slices_S64x34x258_o0_0_1_S64x32x256 slices_S64x34x258_o0_1_1_S64x32x256
    reduces_S64x32x256_S32x256 (.inl rfl) rfl shapeCasts_S32x256_S1x1x32x256 a0 a1 r s

theorem plane2 (v3 : Vec Ideal S1x64x34x258 .f32) (v5 : Vec Ideal S1x64x32x256 .f32) (a0 a1 : Fin 1) (r : Fin 32) (s : Fin 256) :
    k0_pay11 (k0_pay5 v3) (k0_pay6 v5) (k0_pay7 v3) (ix4 a0 a1 r s) = planeAt v3 v5 0 2 r s :=
  plane_block v3 v5 0 2 (by omega) (by omega) slices_S64x34x258_o0_0_2_S64x32x256 slices_S64x34x258_o0_1_1_S64x32x256
    reduces_S64x32x256_S32x256 (.inl rfl) rfl shapeCasts_S32x256_S1x1x32x256 a0 a1 r s

theorem plane3 (v3 : Vec Ideal S1x64x34x258 .f32) (v5 : Vec Ideal S1x64x32x256 .f32) (a0 a1 : Fin 1) (r : Fin 32) (s : Fin 256) :
    k0_pay12 (k0_pay5 v3) (k0_pay6 v5) (k0_pay7 v3) (ix4 a0 a1 r s) = planeAt v3 v5 1 0 r s :=
  plane_block v3 v5 1 0 (by omega) (by omega) slices_S64x34x258_o0_1_0_S64x32x256 slices_S64x34x258_o0_1_1_S64x32x256
    reduces_S64x32x256_S32x256 (.inl rfl) rfl shapeCasts_S32x256_S1x1x32x256 a0 a1 r s

theorem plane4 (v3 : Vec Ideal S1x64x34x258 .f32) (v5 : Vec Ideal S1x64x32x256 .f32) (a0 a1 : Fin 1) (r : Fin 32) (s : Fin 256) :
    k0_pay1 (k0_pay13 (k0_pay5 v3) (k0_pay6 v5) (k0_pay7 v3)) (ix4 a0 a1 r s) = planeAt v3 v5 1 2 r s :=
  plane_block v3 v5 1 2 (by omega) (by omega) slices_S64x34x258_o0_1_2_S64x32x256 slices_S64x34x258_o0_1_1_S64x32x256
    reduces_S64x32x256_S32x256 (.inl rfl) rfl shapeCasts_S32x256_S1x1x32x256 a0 a1 r s

theorem plane5 (v3 : Vec Ideal S1x64x34x258 .f32) (v5 : Vec Ideal S1x64x32x256 .f32) (a0 a1 : Fin 1) (r : Fin 32) (s : Fin 256) :
    k0_pay2 (k0_pay5 v3) (k0_pay6 v5) (k0_pay7 v3) (ix4 a0 a1 r s) = planeAt v3 v5 2 0 r s :=
  plane_block v3 v5 2 0 (by omega) (by omega) slices_S64x34x258_o0_2_0_S64x32x256 slices_S64x34x258_o0_1_1_S64x32x256
    reduces_S64x32x256_S32x256 (.inl rfl) rfl shapeCasts_S32x256_S1x1x32x256 a0 a1 r s

theorem plane6 (v3 : Vec Ideal S1x64x34x258 .f32) (v5 : Vec Ideal S1x64x32x256 .f32) (a0 a1 : Fin 1) (r : Fin 32) (s : Fin 256) :
    k0_pay3 (k0_pay5 v3) (k0_pay6 v5) (k0_pay7 v3) (ix4 a0 a1 r s) = planeAt v3 v5 2 1 r s :=
  plane_block v3 v5 2 1 (by omega) (by omega) slices_S64x34x258_o0_2_1_S64x32x256 slices_S64x34x258_o0_1_1_S64x32x256
    reduces_S64x32x256_S32x256 (.inl rfl) rfl shapeCasts_S32x256_S1x1x32x256 a0 a1 r s

theorem plane7 (v3 : Vec Ideal S1x64x34x258 .f32) (v5 : Vec Ideal S1x64x32x256 .f32) (a0 a1 : Fin 1) (r : Fin 32) (s : Fin 256) :
    k0_pay4 (k0_pay5 v3) (k0_pay6 v5) (k0_pay7 v3) (ix4 a0 a1 r s) = planeAt v3 v5 2 2 r s :=
  plane_block v3 v5 2 2 (by omega) (by omega) slices_S64x34x258_o0_2_2_S64x32x256 slices_S64x34x258_o0_1_1_S64x32x256
    reduces_S64x32x256_S32x256 (.inl rfl) rfl shapeCasts_S32x256_S1x1x32x256 a0 a1 r s

/-- The local entry `(0, 0, r, s)` of the store to plane `K` is entry `(0, K, r, s)` of the block. -/
theorem emb_plane (K : ℕ) (hK : K < 8)
    (inb : ∀ a, (![0, K, 0, 0] : Fin 4 → ℕ) a + S1x1x32x256.size a ≤ S1x8x32x256.size a)
    (a0 a1 : Fin 1) (r : Fin 32) (s : Fin 256) :
    (Rect.unit (s := S1x8x32x256) ![0, K, 0, 0] S1x1x32x256.size inb).emb (ix4 a0 a1 r s)
      = ix4 (0 : Fin 1) (⟨K, hK⟩ : Fin 8) r s := by
  funext a
  apply Fin.ext
  match a with
  | ⟨0, _⟩ => show 0 + 1 * a0.val = 0; have := a0.isLt; omega
  | ⟨1, _⟩ => show K + 1 * a1.val = K; have := a1.isLt; omega
  | ⟨2, _⟩ => show 0 + 1 * r.val = r.val; omega
  | ⟨3, _⟩ => show 0 + 1 * s.val = s.val; omega

/-- WHAT A POINT LEAVES in its output block: `blockOf` of the 34 frame rows it loads from the resident image block (from
    row `32 · h` on) and of the event tile. The run's eight pieces are the eight planes; each piece's payload is its plane
    of `blockOf`, and together they cover the block. -/
theorem block_eq (c : Dev nD) (i : grid0.Coords) (arg2 : Memref sig .tc .vmem S1x64x258x258 .f32) (harg2 : arg2.IsWhole)
    (arg3 : Memref sig .tc .vmem S1x64x32x256 .f32) (harg3 : arg3.IsWhole)
    (arg4 : Memref sig .tc .vmem S1x8x32x256 .f32) (harg4 : arg4.IsWhole)
    (x0 : Vec Ideal S1x64x258x258 .f32) (x1 : Vec Ideal S1x64x32x256 .f32) :
    out0_A_2 (F := Ideal) c i arg2 harg2 arg3 harg3 arg4 harg4 x0 x1
      = blockOf (View.ld x0 (Rect.unit (k0_off1 i) S1x64x34x258.size (k0_off1_inb i)))
          (View.ld x1 (Rect.unit ![0, 0, 0, 0] S1x64x32x256.size inb_S1x64x32x256_S1x64x32x256_0_0_0_0)) := by
  unfold out0_A_2
  rw [View.read_writes_eq_canon _ _ _ (cover0_A_2 c i arg2 harg2 arg3 harg3 arg4 harg4 x0 x1)]
  funext y
  refine View.canon_apply_of_pieces
    (blockOf (View.ld x0 (Rect.unit (k0_off1 i) S1x64x34x258.size (k0_off1_inb i)))
      (View.ld x1 (Rect.unit ![0, 0, 0, 0] S1x64x32x256.size inb_S1x64x32x256_S1x64x32x256_0_0_0_0))) _ ?_ y
    (cover0_A_2 c i arg2 harg2 arg3 harg3 arg4 harg4 x0 x1 y)
  unfold kernelRun0_A
  dsimp only
  sl_unfold_words
  simp only [View.readAt_eq_ld, harg2.read_unread, harg3.read_unread]
  intro p hp x
  simp only [List.mem_cons, List.not_mem_nil, or_false] at hp
  rcases hp with rfl | rfl | rfl | rfl | rfl | rfl | rfl | rfl
  all_goals
    obtain ⟨a0, a1, r, s, rfl⟩ : ∃ (a0 : Fin 1) (a1 : Fin 1) (r : Fin 32) (s : Fin 256), x = ix4 a0 a1 r s :=
      ⟨x 0, x 1, x 2, x 3, eq_ix4 x⟩
  · show _ = blockOf _ _ ((Rect.unit (s := S1x8x32x256) ![0, 7, 0, 0] S1x1x32x256.size inb_S1x8x32x256_S1x1x32x256_0_7_0_0).emb (ix4 a0 a1 r s))
    rw [emb_plane 7 (by omega)]
    exact plane7 _ _ a0 a1 r s
  · show _ = blockOf _ _ ((Rect.unit (s := S1x8x32x256) ![0, 6, 0, 0] S1x1x32x256.size inb_S1x8x32x256_S1x1x32x256_0_6_0_0).emb (ix4 a0 a1 r s))
    rw [emb_plane 6 (by omega)]
    exact plane6 _ _ a0 a1 r s
  · show _ = blockOf _ _ ((Rect.unit (s := S1x8x32x256) ![0, 5, 0, 0] S1x1x32x256.size inb_S1x8x32x256_S1x1x32x256_0_5_0_0).emb (ix4 a0 a1 r s))
    rw [emb_plane 5 (by omega)]
    exact plane5 _ _ a0 a1 r s
  · show _ = blockOf _ _ ((Rect.unit (s := S1x8x32x256) ![0, 4, 0, 0] S1x1x32x256.size inb_S1x8x32x256_S1x1x32x256_0_4_0_0).emb (ix4 a0 a1 r s))
    rw [emb_plane 4 (by omega)]
    exact plane4 _ _ a0 a1 r s
  · show _ = blockOf _ _ ((Rect.unit (s := S1x8x32x256) ![0, 3, 0, 0] S1x1x32x256.size inb_S1x8x32x256_S1x1x32x256_0_3_0_0).emb (ix4 a0 a1 r s))
    rw [emb_plane 3 (by omega)]
    exact plane3 _ _ a0 a1 r s
  · show _ = blockOf _ _ ((Rect.unit (s := S1x8x32x256) ![0, 2, 0, 0] S1x1x32x256.size inb_S1x8x32x256_S1x1x32x256_0_2_0_0).emb (ix4 a0 a1 r s))
    rw [emb_plane 2 (by omega)]
    exact plane2 _ _ a0 a1 r s
  · show _ = blockOf _ _ ((Rect.unit (s := S1x8x32x256) ![0, 1, 0, 0] S1x1x32x256.size inb_S1x8x32x256_S1x1x32x256_0_1_0_0).emb (ix4 a0 a1 r s))
    rw [emb_plane 1 (by omega)]
    exact plane1 _ _ a0 a1 r s
  · show _ = blockOf _ _ ((Rect.unit (s := S1x8x32x256) ![0, 0, 0, 0] S1x1x32x256.size inb_S1x8x32x256_S1x1x32x256_0_0_0_0).emb (ix4 a0 a1 r s))
    rw [emb_plane 0 (by omega)]
    exact plane0 _ _ a0 a1 r s

end Cert.Affinity.Kernel

end
-- ==== Proof.LibPad.lean ====
/-
  A one-element border on the last two axes of a rank-4 array, read at an index.

  `stablehlo.pad` with low and high padding `[0, 0, 1, 1]` and no interior padding turns a `[4, 64, 256, 256]` array into a
  `[4, 64, 258, 258]` one. At frame position `(r, s)` of image `b`, channel `k`, the result is the operand at `(r - 1, s - 1)`
  when `1 ≤ r ≤ 256` and `1 ≤ s ≤ 256`, and the padding value on the border. Stated for any element type and any padding
  value, over the literal shapes.
-/
import Idealize.ShloMosaic.Lib.KernelVsHost
import Idealize.ShloMosaic.Lib.ValueIdx

noncomputable section

namespace Cert.Affinity

open Idealize.ShloMosaic Idealize.ShloMosaic.ValueIdx

/-- The padded array at `(b, k, r, s)`: the operand one row up and one column left over the image, the padding value on
    the border. -/
theorem pad_border_apply {α : Type} (X : (⟨4, ![4, 64, 256, 256]⟩ : Shape).Idx → α) {u : Shape} (v : u.Idx → α)
    (h : (⟨4, ![4, 64, 256, 256]⟩ : Shape).Pads ![0, 0, 1, 1] ![0, 0, 1, 1] ![0, 0, 0, 0] ⟨4, ![4, 64, 258, 258]⟩)
    (hu : 0 < u.numel) (b : Fin 4) (k : Fin 64) (r s : Fin 258) :
    pad ⟨4, ![4, 64, 258, 258]⟩ ![0, 0, 1, 1] ![0, 0, 1, 1] ![0, 0, 0, 0] X v h hu (ix4 b k r s)
      = if hin : (1 ≤ r.val ∧ r.val ≤ 256) ∧ (1 ≤ s.val ∧ s.val ≤ 256)
          then X (ix4 b k ⟨r.val - 1, by omega⟩ ⟨s.val - 1, by omega⟩) else v (Shape.Idx.first hu) := by
  by_cases hin : (1 ≤ r.val ∧ r.val ≤ 256) ∧ (1 ≤ s.val ∧ s.val ≤ 256)
  · rw [dif_pos hin]
    refine pad_apply_of_inside _ _ _ X v h hu _ _ (fun a => ?_)
    match a with
    | ⟨0, _⟩ => show b.val = 0 + b.val * (0 + 1); omega
    | ⟨1, _⟩ => show k.val = 0 + k.val * (0 + 1); omega
    | ⟨2, _⟩ => show r.val = 1 + (r.val - 1) * (0 + 1); omega
    | ⟨3, _⟩ => show s.val = 1 + (s.val - 1) * (0 + 1); omega
  · rw [dif_neg hin]
    by_cases hr : 1 ≤ r.val ∧ r.val ≤ 256
    · refine pad_apply_of_not_inside _ _ _ X v h hu _ ⟨3, by decide⟩ ?_
      show ¬(1 ≤ s.val ∧ (s.val - 1) % (0 + 1) = 0 ∧ (s.val - 1) / (0 + 1) < 256)
      simp only [Nat.zero_add, Nat.div_one, Nat.mod_one]
      intro hs; exact hin ⟨hr, by omega⟩
    · refine pad_apply_of_not_inside _ _ _ X v h hu _ ⟨2, by decide⟩ ?_
      show ¬(1 ≤ r.val ∧ (r.val - 1) % (0 + 1) = 0 ∧ (r.val - 1) / (0 + 1) < 256)
      simp only [Nat.zero_add, Nat.div_one, Nat.mod_one]
      intro hs; exact hr (by omega)

end Cert.Affinity

end
-- ==== Proof.KArray.lean ====
/-
  The kernel's result array: the affinity of the specification.

  The region finds the image with a one-pixel zero border (the host pads it before the call). Grid point `(b, h)` sees the
  whole bordered image `b`, of which it loads the 34 frame rows from row `32 · h` on, and rows `32 · h … 32 · h + 31` of
  the event image `b`; it writes rows `32 · h … 32 · h + 31` of the eight planes of result image `b`. So frame row `r'` of
  the load is frame row `32 · h + r'` of the bordered image, and entry `(k, r, s)` of the written block — the plane of
  the `k`-th neighbour offset at `(r, s)` — is the specification's affinity at pixel `(32 · h + r, s)`. The 32 blocks tile
  the result array.
-/
import proofs.«179121_j22445499089558_1_alg».proof.Proof.Gen.KernelIdeal.Value
import proofs.«179121_j22445499089558_1_alg».proof.Proof.KBlock
import proofs.«179121_j22445499089558_1_alg».proof.Proof.LibPad
import Idealize.ShloMosaic.Lib.StableHlo.Run
import Idealize.ShloMosaic.Lib.Pipeline.Value
import Idealize.ShloMosaic.Lib.Tactic

set_option maxRecDepth 16384

noncomputable section

open scoped BigOperators

namespace Cert.Affinity.Kernel

open Cert.KernelIdeal Cert.KernelIdeal.Gen Idealize.ShloMosaic Idealize.ShloMosaic.ValueIdx Cert.Affinity
open Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-! ## The bordered image the region finds -/

/-- The array the host hands to the call: the image padded by one entry on the last two axes with the integer zero
    read as a number. -/
theorem padded_eq (c : Dev nD) :
    (V m c main_v0 : S4x64x258x258.Idx → EReal)
      = pad S4x64x258x258 ![0, 0, 1, 1] ![0, 0, 1, 1] ![0, 0, 0, 0] (m ((c : Thread nD τ).loc main_arg0))
          (sitofp (F := Ideal) .f32 (constantI S_ 32 0#32)) pads_S4x64x256x256_S4x64x258x258_000_000_110_110 h_S_ := by
  dsimp only [Gen.V]
  simp only [Gen.hostOps0, Gen.hostOps0_1, List.flatten_cons, List.flatten_nil, List.append_nil, List.cons_append, List.nil_append]
  after_results
  rfl

/-- At frame position `(r, s)` it is the specification's zero-bordered image. -/
theorem padded_apply (c : Dev nD) (b : Fin 4) (k : Fin 64) (r s : Fin 258) :
    (V m c main_v0 : S4x64x258x258.Idx → EReal) (ix4 b k r s) = padAt (m ((c : Thread nD τ).loc main_arg0)) b k r.val s.val := by
  rw [padded_eq, pad_border_apply]
  unfold padAt
  by_cases h : Inside r.val s.val
  · rw [dif_pos h, dif_pos h]
  · rw [dif_neg h, dif_neg h]
    show (((0#32 : BitVec 32).toInt : ℝ) : EReal) = 0
    simp

/-! ## The windows' block indices, decided over the grid -/

/-- The three windows move together: the image window and the event window sit at the result window's image index, the
    event window at its row-tile index too; the other block indices are zero; and the row tile is the grid's second
    coordinate. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) < 4 ∧ win0_2.index t (2 : Fin 4) < 8
    ∧ ((grid0.coords t) 1).val = win0_2.index t (2 : Fin 4) :=
  (by decide +kernel : ∀ t : Fin grid0.N, _)

/-- Every (image, row tile) pair is some point's. -/
theorem idx_onto : ∀ (q0 : Fin 4) (q2 : Fin 8), ∃ t : Fin cfg0.N,
    win0_2.index t (0 : Fin 4) = q0.val ∧ win0_2.index t (2 : Fin 4) = q2.val :=
  (by decide +kernel : ∀ (q0 : Fin 4) (q2 : Fin 8), ∃ t : Fin grid0.N,
    win0_2.index t (0 : Fin 4) = q0.val ∧ win0_2.index t (2 : Fin 4) = q2.val)

/-! ## The two input blocks at an entry -/

/-- The image window's block at a point is the whole bordered image of the point's batch element. -/
theorem iblk0_apply (c : Dev nD) (t : Fin cfg0.N) (a0 : Fin 1) (k : Fin 64) (r s : Fin 258) (b : Fin 4)
    (hb : win0_2.index t (0 : Fin 4) = b.val) :
    (iblk m c 0 t : Vec Ideal S1x64x258x258 .f32) (ix4 a0 k r s)
      = padAt (m ((c : Thread nD τ).loc main_arg0)) b k r.val s.val := by
  obtain ⟨e00, e01, e02, e03, -⟩ := idx_facts t
  rw [← padded_apply m c b k r s]
  unfold iblk
  rw [View.read_apply]
  show V m c main_v0 _ = V m c main_v0 _
  congr 1
  funext a
  apply Fin.ext
  match a with
  | ⟨0, _⟩ => show win0_0.index t (0 : Fin 4) * 1 + 1 * a0.val = b.val; have := a0.isLt; omega
  | ⟨1, _⟩ => show win0_0.index t (1 : Fin 4) * 64 + 1 * k.val = k.val; omega
  | ⟨2, _⟩ => show win0_0.index t (2 : Fin 4) * 258 + 1 * r.val = r.val; omega
  | ⟨3, _⟩ => show win0_0.index t (3 : Fin 4) * 258 + 1 * s.val = s.val; omega

/-- The event window's block at a point is a 32-row tile of the event image of the point's batch element. -/
theorem iblk1_apply (c : Dev nD) (t : Fin cfg0.N) (a0 : Fin 1) (k : Fin 64) (r : Fin 32) (s : Fin 256) (b : Fin 4) (y : Fin 256)
    (hb : win0_2.index t (0 : Fin 4) = b.val) (hy : y.val = win0_2.index t (2 : Fin 4) * 32 + r.val) :
    (iblk m c 1 t : Vec Ideal S1x64x32x256 .f32) (ix4 a0 k r s)
      = (m ((c : Thread nD τ).loc main_arg1) : S4x64x256x256.Idx → EReal) (ix4 b k y s) := by
  obtain ⟨-, -, -, -, e10, e11, e12, e13, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * a0.val = b.val; have := a0.isLt; omega
  | ⟨1, _⟩ => show win0_1.index t (1 : Fin 4) * 64 + 1 * k.val = k.val; omega
  | ⟨2, _⟩ => show win0_1.index t (2 : Fin 4) * 32 + 1 * r.val = y.val; omega
  | ⟨3, _⟩ => show win0_1.index t (3 : Fin 4) * 256 + 1 * s.val = s.val; omega

/-! ## What a point computes, in the specification's terms -/

/-- The 34 frame rows point `t` loads from its image block. -/
abbrev rowsAt (c : Dev nD) (t : Fin cfg0.N) : Vec Ideal S1x64x34x258 .f32 :=
  View.ld (iblk m c 0 t : Vec Ideal S1x64x258x258 .f32)
    (Rect.unit (k0_off1 (grid0.coords t)) S1x64x34x258.size (k0_off1_inb (grid0.coords t)))

/-- The event tile point `t` loads: its whole event block. -/
abbrev tileAt (c : Dev nD) (t : Fin cfg0.N) : Vec Ideal S1x64x32x256 .f32 :=
  View.ld (iblk m c 1 t : Vec Ideal S1x64x32x256 .f32)
    (Rect.unit ![0, 0, 0, 0] S1x64x32x256.size inb_S1x64x32x256_S1x64x32x256_0_0_0_0)

theorem di_le (k : Fin 8) : di k ≤ 2 := by fin_cases k <;> decide
theorem dj_le (k : Fin 8) : dj k ≤ 2 := by fin_cases k <;> decide

/-- Frame row `r'` of the load is frame row `32 · h + r'` of the bordered image of the point's batch element. -/
theorem frame_at (c : Dev nD) (t : Fin cfg0.N) (b : Fin 4) (hb : win0_2.index t (0 : Fin 4) = b.val)
    (k : Fin 64) (r' s' : ℕ) (hr : r' < 34) (hs : s' < 258) :
    frameAt (rowsAt m c t) k r' s'
      = padAt (m ((c : Thread nD τ).loc main_arg0)) b k (win0_2.index t (2 : Fin 4) * 32 + r') s' := by
  obtain ⟨-, -, -, -, -, -, -, -, -, -, -, hh, hco⟩ := idx_facts t
  unfold frameAt
  rw [dif_pos ⟨hr, hs⟩]
  have he : (Rect.unit (s := S1x64x258x258) (k0_off1 (grid0.coords t)) S1x64x34x258.size (k0_off1_inb (grid0.coords t))).idx
      (ix4 (0 : Fin 1) k (⟨r', hr⟩ : Fin 34) (⟨s', hs⟩ : Fin 258))
      = ix4 (0 : Fin 1) k (⟨win0_2.index t (2 : Fin 4) * 32 + r', by omega⟩ : Fin 258) (⟨s', hs⟩ : Fin 258) := by
    have ho := k0_off1_eq (grid0.coords t)
    funext a
    apply Fin.ext
    match a with
    | ⟨0, _⟩ => show k0_off1 (grid0.coords t) (0 : Fin 4) + 1 * 0 = 0; rw [ho]; rfl
    | ⟨1, _⟩ => show k0_off1 (grid0.coords t) (1 : Fin 4) + 1 * k.val = k.val; rw [ho]; show 0 + 1 * k.val = k.val; omega
    | ⟨2, _⟩ =>
      show k0_off1 (grid0.coords t) (2 : Fin 4) + 1 * r' = win0_2.index t (2 : Fin 4) * 32 + r'
      rw [ho]; show 32 * ((grid0.coords t) 1).val + 1 * r' = _; omega
    | ⟨3, _⟩ => show k0_off1 (grid0.coords t) (3 : Fin 4) + 1 * s' = s'; rw [ho]; show 0 + 1 * s' = s'; omega
  show (iblk m c 0 t : Vec Ideal S1x64x258x258 .f32) _ = _
  rw [he]
  exact iblk0_apply m c t 0 k _ _ b hb

/-- The event tile at `(k, r, s)` is the event image at row `32 · h + r`. -/
theorem tile_at (c : Dev nD) (t : Fin cfg0.N) (b : Fin 4) (hb : win0_2.index t (0 : Fin 4) = b.val)
    (k : Fin 64) (r : Fin 32) (s : Fin 256) (y : Fin 256) (hy : y.val = win0_2.index t (2 : Fin 4) * 32 + r.val) :
    tileAt m c t (ix4 (0 : Fin 1) k r s) = (m ((c : Thread nD τ).loc main_arg1) : S4x64x256x256.Idx → EReal) (ix4 b k y s) := by
  have hz : (![0, 0, 0, 0] : Fin 4 → ℕ) = fun _ => 0 := funext fun a => by fin_cases a <;> rfl
  unfold tileAt
  rw [View.ld_unit_zero (S := S1x64x32x256) hz]
  exact iblk1_apply m c t 0 k r s b y hb hy

/-- Plane `k` of the point's block at `(r, s)` is the affinity of pixel `(32 · h + r, s)` of image `b` with its `k`-th
    neighbour. -/
theorem plane_at (c : Dev nD) (t : Fin cfg0.N) (b : Fin 4) (hb : win0_2.index t (0 : Fin 4) = b.val)
    (k : Fin 8) (r : Fin 32) (s : Fin 256) (y : Fin 256) (hy : y.val = win0_2.index t (2 : Fin 4) * 32 + r.val) :
    planeAt (rowsAt m c t) (tileAt m c t) (di k) (dj k) r s
      = affAt (m ((c : Thread nD τ).loc main_arg0)) (m ((c : Thread nD τ).loc main_arg1)) b k y s := by
  have hf : ∀ p q : ℕ, p ≤ 2 → q ≤ 2 →
      (fun k' => frameAt (rowsAt m c t) k' (r.val + p) (s.val + q))
        = fun k' => padAt (m ((c : Thread nD τ).loc main_arg0)) b k' (y.val + p) (s.val + q) := fun p q hp hq =>
    funext fun k' => by
      rw [frame_at m c t b hb k' (r.val + p) (s.val + q) (by omega) (by omega), hy, Nat.add_assoc]
  have he : (fun k' => tileAt m c t (ix4 (0 : Fin 1) k' r s))
      = fun k' => (m ((c : Thread nD τ).loc main_arg1) : S4x64x256x256.Idx → EReal) (ix4 b k' y s) :=
    funext fun k' => tile_at m c t b hb k' r s y hy
  unfold planeAt affAt nb
  rw [hf (di k) (dj k) (di_le k) (dj_le k), hf 1 1 (by omega) (by omega), he]

/-! ## From blocks to the array -/

/-- The affinity of the two argument arrays, as contents of the result array. -/
abbrev result (c : Dev nD) : Buf (Elt Ideal) ((c : Thread nD τ).loc main_v1) :=
  aff (m ((c : Thread nD τ).loc main_arg0)) (m ((c : Thread nD τ).loc main_arg1))

/-- WHAT POINT `t` WRITES BACK is block `t` of the affinity array: the block's entry `(k, r, s)` is the array's entry
    `(b, k, 32 · h + r, s)`. -/
theorem flushed_eq (c : Dev nD) (t : Fin cfg0.N) :
    (dats m 0 c).flushed 2 t = ((cfg0.win 2).blk t).view.read (Elt Ideal) (result m c) := by
  obtain ⟨-, -, -, -, -, -, -, -, e21, e23, hb4, hh8, -⟩ := idx_facts t
  rw [Cert.KernelIdeal.Value.flushed2_A, block_eq]
  funext j
  obtain ⟨a0, k, r, s, rfl⟩ : ∃ (a0 : Fin 1) (k : Fin 8) (r : Fin 32) (s : Fin 256), j = ix4 a0 k r s :=
    ⟨j 0, j 1, j 2, j 3, eq_ix4 j⟩
  have hemb : ((cfg0.win 2).blk t).view.emb (ix4 a0 k r s)
      = ix4 (⟨win0_2.index t (0 : Fin 4), hb4⟩ : Fin 4) k
          (⟨win0_2.index t (2 : Fin 4) * 32 + r.val, by omega⟩ : Fin 256) s := by
    funext a
    apply Fin.ext
    match a with
    | ⟨0, _⟩ => show win0_2.index t (0 : Fin 4) * 1 + 1 * a0.val = win0_2.index t (0 : Fin 4); have := a0.isLt; omega
    | ⟨1, _⟩ => show win0_2.index t (1 : Fin 4) * 8 + 1 * k.val = k.val; omega
    | ⟨2, _⟩ => show win0_2.index t (2 : Fin 4) * 32 + 1 * r.val = win0_2.index t (2 : Fin 4) * 32 + r.val; omega
    | ⟨3, _⟩ => show win0_2.index t (3 : Fin 4) * 256 + 1 * s.val = s.val; omega
  show blockOf (rowsAt m c t) (tileAt m c t) (ix4 a0 k r s)
    = aff (m ((c : Thread nD τ).loc main_arg0)) (m ((c : Thread nD τ).loc main_arg1)) (((cfg0.win 2).blk t).view.emb (ix4 a0 k r s))
  rw [hemb, aff_apply]
  exact plane_at m c t ⟨_, hb4⟩ rfl k r s ⟨_, by omega⟩ rfl

/-- An entry of the result array is in point `t`'s block iff each coordinate is in the block's range on its axis. -/
theorem mem_blk (t : Fin cfg0.N) (i : S4x8x256x256.Idx) :
    i ∈ ((cfg0.win 2).blk t).view.set ↔ ∀ a : Fin 4, win0_2.index t a * S1x8x32x256.size a ≤ (i a).val
      ∧ (i a).val < win0_2.index t a * S1x8x32x256.size a + S1x8x32x256.size a := by
  show i ∈ ((View.whole main_v1).slice (win0_2.rect t)).set ↔ _
  rw [View.set_slice_whole, Rect.mem_set_unit]
  exact Iff.rfl

/-- Every entry of the result array is in some point's block: image `i 0`, row tile `i 2 / 32`. -/
theorem cover (i : S4x8x256x256.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 256 := (i 2).isLt
  have h3 : (i 3).val < 256 := (i 3).isLt
  obtain ⟨t, ht0, ht2⟩ := idx_onto ⟨(i 0).val, h0⟩ ⟨(i 2).val / 32, by omega⟩
  obtain ⟨-, -, -, -, -, -, -, -, e21, e23, -⟩ := idx_facts t
  have q0 : win0_2.index t (0 : Fin 4) = (i 0).val := ht0
  have q2 : win0_2.index t (2 : Fin 4) = (i 2).val / 32 := ht2
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- THE ARRAY after the run is the affinity of the argument arrays. -/
theorem final (c : Dev nD) : (dats m 0 c).arrAt 2 cfg0.N = result m c :=
  (dats m 0 c).arrAt_eq_of_cover 2 (result m c) (fun t _ => flushed_eq m c t) cover

/-- The kernel's run: the result array ends at the affinity of the arguments, which end unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Affinity.Kernel

end
-- ==== Proof.Ref.lean ====
/-
  The reference program's result, read index by index, is the local patch affinity of the specification.

  At batch element `b`, neighbour offset `k`, pixel `(y, x)`: each of the two arrays is divided, channel vector by channel
  vector, by its Euclidean norm floored at `eps`; the normalised image is given a one-pixel border of zeros; the
  neighbour factor is the bordered array at frame position `(y + di k, x + dj k)`; the sum over the 64 channels of
  (neighbour · image) · (neighbour · event) is taken from the initial value zero; the eight sums are laid side by side along
  the second axis and the whole is floored at zero.

  The bordered normalised image at a frame position is the specification's `nb` there (a zero channel vector normalises
  to zero), the centre factor is `nb` at the frame position over the pixel itself, and the two groupings of the
  four-factor product agree by commutativity and associativity alone.
-/
import proofs.«179121_j22445499089558_1_alg».proof.Proof.Gen.ReferenceIdeal.Read
import proofs.«179121_j22445499089558_1_alg».proof.Proof.Spec
import proofs.«179121_j22445499089558_1_alg».proof.Proof.LibPad
import Idealize.ShloMosaic.Lib.ValueIdx
import Idealize.ShloMosaic.Lib.Pipeline.Value
import Idealize.ShloMosaic.PureOps.Ideal.Laws

noncomputable section

open scoped BigOperators

namespace Cert.Affinity.Ref

open Cert.ReferenceIdeal Cert.ReferenceIdeal.Gen Cert.ReferenceIdeal.Read Idealize.ShloMosaic Idealize.ShloMosaic.ValueIdx

/-- An argument array of the reference: 4 images of 64 channels of 256 × 256 pixels, read on the extended reals. -/
abbrev Arg : Type := (⟨S4x64x256x256, .f32⟩ : BufTy).Contents (Elt Ideal)

/-! ### The two normalised arrays at an index -/

/-- The normalised image at `(b, c, y, x)`: entry `c` of the pixel's channel vector over its floored norm. The sum of
    squares starts from the initial value zero, which drops out. -/
theorem n7_at (X : Arg) (b : Fin 4) (c : Fin 64) (y x : Fin 256) :
    val_main_v7 (F := Ideal) X (ix4 b c y x) = unitAt (fun k => X (ix4 b k y x)) c := by
  have hidx : ∀ k : Fin 64, idx_main_v1 (idx_main_v2 (idx_main_v6 (ix4 b c y x))) k = ix4 b k y x := fun k =>
    funext fun a => by match a with | ⟨0, _⟩ => rfl | ⟨1, _⟩ => rfl | ⟨2, _⟩ => rfl | ⟨3, _⟩ => rfl
  rw [val_main_v7_apply, val_main_v6_apply, val_main_v5_apply, val_main_v3_apply, val_main_v2_apply,
    val_main_v1_apply, val_main_v4_apply, val_main_cst_0_apply, val_main_cst_apply]
  simp only [val_main_v0_apply, hidx, Ideal.hostDivf_def, Ideal.maximumf_def, Ideal.hostUnary_sqrt_def, Ideal.mulf_def,
    Ideal.ofBits_def, Ideal.ofBits_zero_f32, zero_add]
  rfl

/-- The normalised event array at `(b, c, y, x)`, in the same way. -/
theorem n15_at (E : Arg) (b : Fin 4) (c : Fin 64) (y x : Fin 256) :
    val_main_v15 (F := Ideal) E (ix4 b c y x) = unitAt (fun k => E (ix4 b k y x)) c := by
  have hidx : ∀ k : Fin 64, idx_main_v9 (idx_main_v10 (idx_main_v14 (ix4 b c y x))) k = ix4 b k y x := fun k =>
    funext fun a => by match a with | ⟨0, _⟩ => rfl | ⟨1, _⟩ => rfl | ⟨2, _⟩ => rfl | ⟨3, _⟩ => rfl
  rw [val_main_v15_apply, val_main_v14_apply, val_main_v13_apply, val_main_v11_apply, val_main_v10_apply,
    val_main_v9_apply, val_main_v12_apply, val_main_cst_2_apply, val_main_cst_1_apply]
  simp only [val_main_v8_apply, hidx, Ideal.hostDivf_def, Ideal.maximumf_def, Ideal.hostUnary_sqrt_def, Ideal.mulf_def,
    Ideal.ofBits_def, Ideal.ofBits_zero_f32, zero_add]
  rfl

/-- The padding value, the integer `0` read as a number, is zero. -/
theorem padval_zero : val_main_call0_v0 (F := Ideal) (Shape.Idx.first h_S_) = 0 := by
  rw [val_main_call0_v0_apply, val_main_c_apply]
  show (((0#32 : BitVec 32).toInt : ℝ) : EReal) = 0
  simp

/-! ### The bordered normalised image at an index -/

/-- At frame position `(r, s)` the bordered array is the normalised image one row up and one column left inside the
    image and the padding value zero on the border: the specification's `nb`, read as the border put on after
    normalising. -/
theorem v16_at (X : Arg) (b : Fin 4) (c : Fin 64) (r s : Fin 258) :
    val_main_v16 (F := Ideal) X (ix4 b c r s) = nb X b c r.val s.val := by
  unfold val_main_v16
  refine (pad_border_apply (val_main_v7 (F := Ideal) X) (val_main_call0_v0 (F := Ideal))
    pads_S4x64x256x256_S4x64x258x258_000_000_110_110 h_S_ b c r s).trans ?_
  rw [nb_eq]
  by_cases h : Inside r.val s.val
  · rw [dif_pos h, dif_pos h]
    exact n7_at X b c _ _
  · rw [dif_neg h, dif_neg h]
    exact padval_zero

/-- The same at any index of the frame whose coordinates are `b`, `c`, `r`, `s`. -/
theorem v16_at' (X : Arg) (b : Fin 4) (c : Fin 64) (r s : ℕ) (j : S4x64x258x258.Idx)
    (h0 : (j 0).val = b.val) (h1 : (j 1).val = c.val) (h2 : (j 2).val = r) (h3 : (j 3).val = s) :
    val_main_v16 (F := Ideal) X j = nb X b c r s := by
  obtain ⟨b', c', r', s', rfl⟩ : ∃ (b' : Fin 4) (c' : Fin 64) (r' s' : Fin 258), j = ix4 b' c' r' s' :=
    ⟨j 0, j 1, j 2, j 3, eq_ix4 j⟩
  have e0 : b' = b := Fin.ext h0
  have e1 : c' = c := Fin.ext h1
  subst e0 e1 h2 h3
  exact v16_at X b' c' r' s'

/-! ### One neighbour's channel sum -/

/-- The specification's channel sum for the neighbour at frame position `(p, q)` of pixel `(y, x)`. -/
def nbSum (X E : Arg) (b : Fin 4) (y x : Fin 256) (p q : ℕ) : EReal :=
  ∑ c : Fin 64, ((nb X b c p q * nb X b c p q) * nb X b c (y.val + 1) (x.val + 1)) * unitAt (fun k' => E (ix4 b k' y x)) c

/-- The affinity is that sum floored at zero. -/
theorem affAt_eq (X E : Arg) (b : Fin 4) (k : Fin 8) (y x : Fin 256) :
    affAt X E b k y x = max (nbSum X E b y x (y.val + di k) (x.val + dj k)) 0 := rfl

/-- Serves all eight neighbours. If an array `S` is, at pixel `(y, x)` and every channel, the bordered normalised image
    at frame position `(p, q)`, then the sum from zero over the channels of `(S · image) · (S · event)`, both normalised, is
    the specification's sum: the zero drops out, the centre factor is `nb` over the pixel itself, and the product is
    regrouped term by term. -/
theorem nbsum_of_slice (X E : Arg) (b : Fin 4) (y x : Fin 256) (p q : ℕ) (S : Arg)
    (hS : ∀ c : Fin 64, S (ix4 b c y x) = nb X b c p q) :
    Ideal.ofBits .f32 0x00000000#32
        + ∑ k : Fin 64, (S (ix4 b k y x) * val_main_v7 (F := Ideal) X (ix4 b k y x))
            * (S (ix4 b k y x) * val_main_v15 (F := Ideal) E (ix4 b k y x))
      = nbSum X E b y x p q := by
  rw [Ideal.ofBits_zero_f32, zero_add]
  unfold nbSum
  refine Finset.sum_congr rfl fun c _ => ?_
  rw [hS, n7_at, n15_at, nb_center, term_comm]

/-- Neighbour 0, frame offset `(0, 0)`: the reference's channel sum at pixel `(y, x)`. -/
theorem v21_at (X E : Arg) (b : Fin 4) (y x : Fin 256) :
    val_main_v21 (F := Ideal) X E (ix3 b y x) = nbSum X E b y x (y.val + 0) (x.val + 0) := by
  have hidx : ∀ k : Fin 64, idx_main_v21 (ix3 b y x) k = ix4 b k y x := fun k =>
    funext fun a => by match a with | ⟨0, _⟩ => rfl | ⟨1, _⟩ => rfl | ⟨2, _⟩ => rfl | ⟨3, _⟩ => rfl
  rw [val_main_v21_apply, val_main_cst_3_apply]
  simp only [hidx, val_main_v20_apply, val_main_v18_apply, val_main_v19_apply, Ideal.mulf_def, Ideal.ofBits_def]
  refine nbsum_of_slice X E b y x _ _ (val_main_v17 (F := Ideal) X) fun c => ?_
  rw [val_main_v17_apply]
  exact v16_at' X b c _ _ _ rfl rfl (by show y.val = y.val + 0; omega) (by show x.val = x.val + 0; omega)

/-- Neighbour 1, frame offset `(0, 1)`. -/
theorem v26_at (X E : Arg) (b : Fin 4) (y x : Fin 256) :
    val_main_v26 (F := Ideal) X E (ix3 b y x) = nbSum X E b y x (y.val + 0) (x.val + 1) := by
  have hidx : ∀ k : Fin 64, idx_main_v26 (ix3 b y x) k = ix4 b k y x := fun k =>
    funext fun a => by match a with | ⟨0, _⟩ => rfl | ⟨1, _⟩ => rfl | ⟨2, _⟩ => rfl | ⟨3, _⟩ => rfl
  rw [val_main_v26_apply, val_main_cst_4_apply]
  simp only [hidx, val_main_v25_apply, val_main_v23_apply, val_main_v24_apply, Ideal.mulf_def, Ideal.ofBits_def]
  refine nbsum_of_slice X E b y x _ _ (val_main_v22 (F := Ideal) X) fun c => ?_
  rw [val_main_v22_apply]
  exact v16_at' X b c _ _ _ rfl rfl (by show y.val = y.val + 0; omega) (by show 1 + x.val = x.val + 1; omega)

/-- Neighbour 2, frame offset `(0, 2)`. -/
theorem v31_at (X E : Arg) (b : Fin 4) (y x : Fin 256) :
    val_main_v31 (F := Ideal) X E (ix3 b y x) = nbSum X E b y x (y.val + 0) (x.val + 2) := by
  have hidx : ∀ k : Fin 64, idx_main_v31 (ix3 b y x) k = ix4 b k y x := fun k =>
    funext fun a => by match a with | ⟨0, _⟩ => rfl | ⟨1, _⟩ => rfl | ⟨2, _⟩ => rfl | ⟨3, _⟩ => rfl
  rw [val_main_v31_apply, val_main_cst_5_apply]
  simp only [hidx, val_main_v30_apply, val_main_v28_apply, val_main_v29_apply, Ideal.mulf_def, Ideal.ofBits_def]
  refine nbsum_of_slice X E b y x _ _ (val_main_v27 (F := Ideal) X) fun c => ?_
  rw [val_main_v27_apply]
  exact v16_at' X b c _ _ _ rfl rfl (by show y.val = y.val + 0; omega) (by show 2 + x.val = x.val + 2; omega)

/-- Neighbour 3, frame offset `(1, 0)`. -/
theorem v36_at (X E : Arg) (b : Fin 4) (y x : Fin 256) :
    val_main_v36 (F := Ideal) X E (ix3 b y x) = nbSum X E b y x (y.val + 1) (x.val + 0) := by
  have hidx : ∀ k : Fin 64, idx_main_v36 (ix3 b y x) k = ix4 b k y x := fun k =>
    funext fun a => by match a with | ⟨0, _⟩ => rfl | ⟨1, _⟩ => rfl | ⟨2, _⟩ => rfl | ⟨3, _⟩ => rfl
  rw [val_main_v36_apply, val_main_cst_6_apply]
  simp only [hidx, val_main_v35_apply, val_main_v33_apply, val_main_v34_apply, Ideal.mulf_def, Ideal.ofBits_def]
  refine nbsum_of_slice X E b y x _ _ (val_main_v32 (F := Ideal) X) fun c => ?_
  rw [val_main_v32_apply]
  exact v16_at' X b c _ _ _ rfl rfl (by show 1 + y.val = y.val + 1; omega) (by show x.val = x.val + 0; omega)

/-- Neighbour 4, frame offset `(1, 2)`. -/
theorem v41_at (X E : Arg) (b : Fin 4) (y x : Fin 256) :
    val_main_v41 (F := Ideal) X E (ix3 b y x) = nbSum X E b y x (y.val + 1) (x.val + 2) := by
  have hidx : ∀ k : Fin 64, idx_main_v41 (ix3 b y x) k = ix4 b k y x := fun k =>
    funext fun a => by match a with | ⟨0, _⟩ => rfl | ⟨1, _⟩ => rfl | ⟨2, _⟩ => rfl | ⟨3, _⟩ => rfl
  rw [val_main_v41_apply, val_main_cst_7_apply]
  simp only [hidx, val_main_v40_apply, val_main_v38_apply, val_main_v39_apply, Ideal.mulf_def, Ideal.ofBits_def]
  refine nbsum_of_slice X E b y x _ _ (val_main_v37 (F := Ideal) X) fun c => ?_
  rw [val_main_v37_apply]
  exact v16_at' X b c _ _ _ rfl rfl (by show 1 + y.val = y.val + 1; omega) (by show 2 + x.val = x.val + 2; omega)

/-- Neighbour 5, frame offset `(2, 0)`. -/
theorem v46_at (X E : Arg) (b : Fin 4) (y x : Fin 256) :
    val_main_v46 (F := Ideal) X E (ix3 b y x) = nbSum X E b y x (y.val + 2) (x.val + 0) := by
  have hidx : ∀ k : Fin 64, idx_main_v46 (ix3 b y x) k = ix4 b k y x := fun k =>
    funext fun a => by match a with | ⟨0, _⟩ => rfl | ⟨1, _⟩ => rfl | ⟨2, _⟩ => rfl | ⟨3, _⟩ => rfl
  rw [val_main_v46_apply, val_main_cst_8_apply]
  simp only [hidx, val_main_v45_apply, val_main_v43_apply, val_main_v44_apply, Ideal.mulf_def, Ideal.ofBits_def]
  refine nbsum_of_slice X E b y x _ _ (val_main_v42 (F := Ideal) X) fun c => ?_
  rw [val_main_v42_apply]
  exact v16_at' X b c _ _ _ rfl rfl (by show 2 + y.val = y.val + 2; omega) (by show x.val = x.val + 0; omega)

/-- Neighbour 6, frame offset `(2, 1)`. -/
theorem v51_at (X E : Arg) (b : Fin 4) (y x : Fin 256) :
    val_main_v51 (F := Ideal) X E (ix3 b y x) = nbSum X E b y x (y.val + 2) (x.val + 1) := by
  have hidx : ∀ k : Fin 64, idx_main_v51 (ix3 b y x) k = ix4 b k y x := fun k =>
    funext fun a => by match a with | ⟨0, _⟩ => rfl | ⟨1, _⟩ => rfl | ⟨2, _⟩ => rfl | ⟨3, _⟩ => rfl
  rw [val_main_v51_apply, val_main_cst_9_apply]
  simp only [hidx, val_main_v50_apply, val_main_v48_apply, val_main_v49_apply, Ideal.mulf_def, Ideal.ofBits_def]
  refine nbsum_of_slice X E b y x _ _ (val_main_v47 (F := Ideal) X) fun c => ?_
  rw [val_main_v47_apply]
  exact v16_at' X b c _ _ _ rfl rfl (by show 2 + y.val = y.val + 2; omega) (by show 1 + x.val = x.val + 1; omega)

/-- Neighbour 7, frame offset `(2, 2)`. -/
theorem v56_at (X E : Arg) (b : Fin 4) (y x : Fin 256) :
    val_main_v56 (F := Ideal) X E (ix3 b y x) = nbSum X E b y x (y.val + 2) (x.val + 2) := by
  have hidx : ∀ k : Fin 64, idx_main_v56 (ix3 b y x) k = ix4 b k y x := fun k =>
    funext fun a => by match a with | ⟨0, _⟩ => rfl | ⟨1, _⟩ => rfl | ⟨2, _⟩ => rfl | ⟨3, _⟩ => rfl
  rw [val_main_v56_apply, val_main_cst_10_apply]
  simp only [hidx, val_main_v55_apply, val_main_v53_apply, val_main_v54_apply, Ideal.mulf_def, Ideal.ofBits_def]
  refine nbsum_of_slice X E b y x _ _ (val_main_v52 (F := Ideal) X) fun c => ?_
  rw [val_main_v52_apply]
  exact v16_at' X b c _ _ _ rfl rfl (by show 2 + y.val = y.val + 2; omega) (by show 2 + x.val = x.val + 2; omega)

/-! ### The eight sums laid side by side

  Each sum is given a unit second axis and the eight are joined along it, so position `k` of that axis holds piece `k`
  at its only position `0`, the pieces before it taking up `k` places. -/

theorem v65_at_0 (X E : Arg) (b : Fin 4) (y x : Fin 256) :
    val_main_v65 (F := Ideal) X E (ix4 b (⟨0, by decide⟩ : Fin 8) y x) = nbSum X E b y x (y.val + 0) (x.val + 0) := by
  have hidx : idx_main_v57 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨0, by decide⟩ : Fin 8) y x) 0
    (by show (0 : ℕ) < 8; decide) S4x1x256x256 (val_main_v57 (F := Ideal) X E) rfl rfl 0 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v57_apply, hidx]
    exact v21_at X E b y x

theorem v65_at_1 (X E : Arg) (b : Fin 4) (y x : Fin 256) :
    val_main_v65 (F := Ideal) X E (ix4 b (⟨1, by decide⟩ : Fin 8) y x) = nbSum X E b y x (y.val + 0) (x.val + 1) := by
  have hidx : idx_main_v58 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨1, by decide⟩ : Fin 8) y x) 1
    (by show (1 : ℕ) < 8; decide) S4x1x256x256 (val_main_v58 (F := Ideal) X E) rfl rfl 1 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v58_apply, hidx]
    exact v26_at X E b y x

theorem v65_at_2 (X E : Arg) (b : Fin 4) (y x : Fin 256) :
    val_main_v65 (F := Ideal) X E (ix4 b (⟨2, by decide⟩ : Fin 8) y x) = nbSum X E b y x (y.val + 0) (x.val + 2) := by
  have hidx : idx_main_v59 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨2, by decide⟩ : Fin 8) y x) 2
    (by show (2 : ℕ) < 8; decide) S4x1x256x256 (val_main_v59 (F := Ideal) X E) rfl rfl 2 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v59_apply, hidx]
    exact v31_at X E b y x

theorem v65_at_3 (X E : Arg) (b : Fin 4) (y x : Fin 256) :
    val_main_v65 (F := Ideal) X E (ix4 b (⟨3, by decide⟩ : Fin 8) y x) = nbSum X E b y x (y.val + 1) (x.val + 0) := by
  have hidx : idx_main_v60 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨3, by decide⟩ : Fin 8) y x) 3
    (by show (3 : ℕ) < 8; decide) S4x1x256x256 (val_main_v60 (F := Ideal) X E) rfl rfl 3 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v60_apply, hidx]
    exact v36_at X E b y x

theorem v65_at_4 (X E : Arg) (b : Fin 4) (y x : Fin 256) :
    val_main_v65 (F := Ideal) X E (ix4 b (⟨4, by decide⟩ : Fin 8) y x) = nbSum X E b y x (y.val + 1) (x.val + 2) := by
  have hidx : idx_main_v61 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨4, by decide⟩ : Fin 8) y x) 4
    (by show (4 : ℕ) < 8; decide) S4x1x256x256 (val_main_v61 (F := Ideal) X E) rfl rfl 4 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v61_apply, hidx]
    exact v41_at X E b y x

theorem v65_at_5 (X E : Arg) (b : Fin 4) (y x : Fin 256) :
    val_main_v65 (F := Ideal) X E (ix4 b (⟨5, by decide⟩ : Fin 8) y x) = nbSum X E b y x (y.val + 2) (x.val + 0) := by
  have hidx : idx_main_v62 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨5, by decide⟩ : Fin 8) y x) 5
    (by show (5 : ℕ) < 8; decide) S4x1x256x256 (val_main_v62 (F := Ideal) X E) rfl rfl 5 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v62_apply, hidx]
    exact v46_at X E b y x

theorem v65_at_6 (X E : Arg) (b : Fin 4) (y x : Fin 256) :
    val_main_v65 (F := Ideal) X E (ix4 b (⟨6, by decide⟩ : Fin 8) y x) = nbSum X E b y x (y.val + 2) (x.val + 1) := by
  have hidx : idx_main_v63 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨6, by decide⟩ : Fin 8) y x) 6
    (by show (6 : ℕ) < 8; decide) S4x1x256x256 (val_main_v63 (F := Ideal) X E) rfl rfl 6 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v63_apply, hidx]
    exact v51_at X E b y x

theorem v65_at_7 (X E : Arg) (b : Fin 4) (y x : Fin 256) :
    val_main_v65 (F := Ideal) X E (ix4 b (⟨7, by decide⟩ : Fin 8) y x) = nbSum X E b y x (y.val + 2) (x.val + 2) := by
  have hidx : idx_main_v64 (ix4 b (0 : Fin 1) y x) = ix3 b y x :=
    funext fun a => by match a with | ⟨0, _⟩ => rfl | ⟨1, _⟩ => rfl | ⟨2, _⟩ => rfl
  unfold val_main_v65
  refine (concatenate_apply_piece (1 : Fin S4x8x256x256.rank) _ _ (ix4 b (⟨7, by decide⟩ : Fin 8) y x) 7
    (by show (7 : ℕ) < 8; decide) S4x1x256x256 (val_main_v64 (F := Ideal) X E) rfl rfl 7 rfl (ix4 b (0 : Fin 1) y x)
    (fun a ha => ?_) rfl).trans ?_
  · match a with
    | ⟨0, _⟩ => rfl
    | ⟨1, _⟩ => exact absurd rfl ha
    | ⟨2, _⟩ => rfl
    | ⟨3, _⟩ => rfl
  · rw [val_main_v64_apply, hidx]
    exact v56_at X E b y x

/-- The joined array at `(b, k, y, x)` is the specification's sum for the `k`-th offset of the window. -/
theorem v65_at (X E : Arg) (b : Fin 4) (k : Fin 8) (y x : Fin 256) :
    val_main_v65 (F := Ideal) X E (ix4 b k y x) = nbSum X E b y x (y.val + di k) (x.val + dj k) := by
  match k with
  | ⟨0, _⟩ => exact v65_at_0 X E b y x
  | ⟨1, _⟩ => exact v65_at_1 X E b y x
  | ⟨2, _⟩ => exact v65_at_2 X E b y x
  | ⟨3, _⟩ => exact v65_at_3 X E b y x
  | ⟨4, _⟩ => exact v65_at_4 X E b y x
  | ⟨5, _⟩ => exact v65_at_5 X E b y x
  | ⟨6, _⟩ => exact v65_at_6 X E b y x
  | ⟨7, _⟩ => exact v65_at_7 X E b y x

/-! ### The result -/

/-- The reference's result is the affinity of the specification: at every index, the joined sums floored at the zero
    word. -/
theorem ref_eq (x0 x1 : (⟨Cert.ReferenceIdeal.S4x64x256x256, .f32⟩ : BufTy).Contents (Elt Ideal)) :
    Cert.ReferenceIdeal.Read.val_main_v67 (F := Ideal) x0 x1 = Cert.Affinity.aff x0 x1 := by
  funext i
  obtain ⟨b, k, y, x, rfl⟩ : ∃ (b : Fin 4) (k : Fin 8) (y x : Fin 256), i = ix4 b k y x :=
    ⟨i 0, i 1, i 2, i 3, eq_ix4 i⟩
  rw [val_main_v67_apply, val_main_v66_apply, val_main_cst_11_apply, Ideal.ofBits_def, Ideal.ofBits_zero_f32,
    Ideal.maximumf_def, aff_apply, affAt_eq, v65_at]

end Cert.Affinity.Ref

end
-- ==== Proof.lean ====
/-
  The certificate of the local patch affinity kernel against its array-program reference.

  Both programs take an image and an event array of 4 × 64 × 256 × 256 entries and return, for every pixel and each of
  the eight neighbours of its 3 × 3 window, `max (Σ_c n_c · n_c · a_c · e_c) 0` over the 64 channels: `a` and `e` the pixel's
  channel vectors of the image and of the event array, each divided by its Euclidean norm floored at `eps`, and `n` the
  normalised channel vector of the image at the neighbouring pixel, zero outside the image (Proof/Spec.lean: `aff`).

  The kernel borders the RAW image with zeros and normalises inside the call, 34 frame rows at a time, one grid point per
  image and 32-row tile; the reference normalises first and borders the normalised image. The two agree because a zero
  channel vector normalises to zero (its floored norm is `eps > 0`). The kernel multiplies `((n · n) · a) · e`, the
  reference `(n · a) · (n · e)`: equal by commutativity and associativity of the product on the extended reals, with no
  appeal to finiteness, so the precondition is never opened.

  The kernel's side is Proof/KPlane.lean, KNorm.lean, KBlock.lean (what one grid point stores, from the generated frame
  run's pieces) and KArray.lean (the 32 blocks tile the result array: `Kernel.run`); the reference's side is Proof/Ref.lean
  over the generated run and its read-at-an-index lemmas (`Ref.ref_eq`). The three frames are the generated ones, the
  reference's being its run with the result dropped; the ideal pass rewrote nothing, so `preserves` is `True`.
-/
import proofs.«179121_j22445499089558_1_alg».proof.Defs
import proofs.«179121_j22445499089558_1_alg».proof.Proof.Gen.Kernel
import proofs.«179121_j22445499089558_1_alg».proof.Proof.Gen.Kernel.Skeleton
import proofs.«179121_j22445499089558_1_alg».proof.Proof.Gen.Kernel.Launch
import proofs.«179121_j22445499089558_1_alg».proof.Proof.Gen.Kernel.Points
import proofs.«179121_j22445499089558_1_alg».proof.Proof.Gen.Kernel.Frame
import proofs.«179121_j22445499089558_1_alg».proof.Proof.Gen.KernelIdeal
import proofs.«179121_j22445499089558_1_alg».proof.Proof.Gen.KernelIdeal.Skeleton
import proofs.«179121_j22445499089558_1_alg».proof.Proof.Gen.KernelIdeal.Launch
import proofs.«179121_j22445499089558_1_alg».proof.Proof.Gen.KernelIdeal.Points
import proofs.«179121_j22445499089558_1_alg».proof.Proof.Gen.KernelIdeal.Frame
import proofs.«179121_j22445499089558_1_alg».proof.Proof.Gen.ReferenceIdeal
import proofs.«179121_j22445499089558_1_alg».proof.Proof.Gen.KernelIdeal.Value
import proofs.«179121_j22445499089558_1_alg».proof.Proof.Gen.ReferenceIdeal.Run
import proofs.«179121_j22445499089558_1_alg».proof.Proof.Gen.ReferenceIdeal.Read
import proofs.«179121_j22445499089558_1_alg».proof.Proof.Gen.Pre_finite_inputs
import proofs.«179121_j22445499089558_1_alg».proof.Proof.KArray
import proofs.«179121_j22445499089558_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array ends at the affinity of its arguments (`Kernel.run`) and the
    reference's at its composed term of its arguments, which is the same affinity (`Ref.ref_eq`); the arguments agree. -/
theorem algebraic : Cert.algebraic_KernelIdeal_ReferenceIdeal := by
  intro m ρ m' ρ' _ hagree
  refine ⟨fun c => Cert.Affinity.Kernel.result m c, Cert.Affinity.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.Affinity.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
